-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S2000000x1 : Shape := ⟨2, ![2000000, 1]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S4096 : S_.BroadcastsInDim S4096 (![] : Fin 0 → Fin S4096.rank)
  reducesTo_S4096_S_d0 : S4096.ReducesTo [0] S_
  slices_S2000000x2_S2000000x1_0_0 : S2000000x2.Slices ![0, 0] S2000000x1
  shapeCasts_S2000000x1_S2000000 : S2000000x1.ShapeCasts S2000000

variable [Facts]

def fn_part1 {F : FTy → Type} [FloatOps F] (main_v13 : IVec S_ 1) (main_v15 : IVec S2000000 32) (main_v16 : IVec S2000000 32) : IVec S_ 1 :=
  let main_v17 : IVec S2000000 1 := cmpi .sge main_v15 main_v16
  let main_c_5 : IVec S_ 1 := constantI S_ 1 1#1
  let main_v18 : IVec S_ 1 := (fun x v => Host.reduce IntOp.andi x v reducesTo_S2000000_S_d0 h_S_) main_v17 main_c_5
  let main_v19 : IVec S_ 1 := andi main_v13 main_v18
  main_v19

def fn {F : FTy → Type} [FloatOps F] (main_arg0 : FVec F S2048x20000 .f32) (main_arg1 : FVec F S2000000 .f32) (main_arg2 : FVec F S4096 .f32) (main_arg3 : IVec S2000000x2 32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : IVec S2000000x1 32 := (extractStridedSlice S2000000x1 ![0, 0] · slices_S2000000x2_S2000000x1_0_0) main_arg3
  let main_v15 : IVec S2000000 32 := shapeCast S2000000 main_v14 shapeCasts_S2000000x1_S2000000
  let main_c_4 : IVec S_ 32 := constantI S_ 32 0#32
  let main_v16 : IVec S2000000 32 := broadcastInDim S2000000 ![] bcast_S_S2000000 main_c_4
  fn_part1 (F := F) main_v13 main_v15 main_v16
-- ==== Kernel.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S20480x4096 : Shape := ⟨2, ![20480, 4096]⟩
abbrev S2000000x1 : Shape := ⟨2, ![2000000, 1]⟩
abbrev S2048x20480 : Shape := ⟨2, ![2048, 20480]⟩
abbrev S1x4096 : Shape := ⟨2, ![1, 4096]⟩
abbrev S2048x4096 : Shape := ⟨2, ![2048, 4096]⟩
abbrev S1024x1024 : Shape := ⟨2, ![1024, 1024]⟩
abbrev S1x1024 : Shape := ⟨2, ![1, 1024]⟩

abbrev nBuf : Space → Nat
  | .hbm => 34
  | .vmem => 9
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S_, .f32⟩
  | .hbm, ⟨5, _⟩ => ⟨S20480x4096, .f32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20480x4096, .f32⟩
  | .hbm, ⟨28, _⟩ => ⟨S2048x20000, .bf16⟩
  | .hbm, ⟨29, _⟩ => ⟨S_, .i32⟩
  | .hbm, ⟨30, _⟩ => ⟨S_, .bf16⟩
  | .hbm, ⟨31, _⟩ => ⟨S2048x20480, .bf16⟩
  | .hbm, ⟨32, _⟩ => ⟨S1x4096, .f32⟩
  | .hbm, ⟨33, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 20], ![false, false, false]⟩

def k0_cond2 (i : grid0.Coords) : BitVec 1 :=
  let arg2 : BitVec 32 := BitVec.ofNat 32 (i 2).val
  let c19_i32 : BitVec 32 := 19#32
  let v14 : BitVec 1 := Scalar.cmpi .eq arg2 c19_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S20480x4096 : S_.BroadcastsInDim S20480x4096 (![] : Fin 0 → Fin S20480x4096.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bitsLt_bf16_f32 : FTy.bits .bf16 < FTy.bits .f32
  pads_S2048x20000_S2048x20480_000_04800 : S2048x20000.Pads (![0, 0] : Fin 2 → Nat) ![0, 480] ![0, 0] S2048x20480
  h_S_ : 0 < S_.numel
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S20480x4096_S2000000x2_S2000000_n_01_01_1_wf : ScatterDims.WF S20480x4096 S2000000x2 S2000000 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x20480.size a
  hwx0_0 : ∀ i : grid0.Coords, EltTy.bits .bf16 = 32 ∨ (Rect.block (s := S2048x20480) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S20480x4096.size a
  hwx0_1 : ∀ i : grid0.Coords, EltTy.bits .f32 = 32 ∨ (Rect.block (s := S20480x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def scatter_S20480x4096_S2000000x2_S2000000_n_01_01_1 : ScatterDims S20480x4096 S2000000x2 S2000000 where
  updateWindowDims := []
  insertedWindowDims := [0, 1]
  scatterDimsToOperandDims := [0, 1]
  indexVectorDim := 1
  wf := scatter_S20480x4096_S2000000x2_S2000000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v20) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S20000x4096 : Shape := ⟨2, ![20000, 4096]⟩
abbrev S2000000x1 : Shape := ⟨2, ![2000000, 1]⟩
abbrev S2048x4096 : Shape := ⟨2, ![2048, 4096]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S_, .f32⟩
  | .hbm, ⟨5, _⟩ => ⟨S20000x4096, .f32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20000x4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .i1⟩
  | .hbm, ⟨35, _⟩ => ⟨S_, .f32⟩
  | .hbm, ⟨36, _⟩ => ⟨S2048x4096, .f32⟩
  | .hbm, ⟨37, _⟩ => ⟨S2048x4096, .i1⟩
  | .hbm, ⟨38, _⟩ => ⟨S_, .f32⟩
  | .hbm, ⟨39, _⟩ => ⟨S_, .f32⟩
  | .hbm, ⟨40, _⟩ => ⟨S2048x4096, .f32⟩
  | .hbm, ⟨41, _⟩ => ⟨S2048x4096, .f32⟩
  | .hbm, ⟨42, _⟩ => ⟨S2048x4096, .f32⟩
  | .hbm, ⟨43, _⟩ => ⟨S_, .f32⟩
  | .hbm, ⟨44, _⟩ => ⟨S2048x4096, .f32⟩
  | .hbm, ⟨45, _⟩ => ⟨S2048x4096, .f32⟩
  | .hbm, ⟨46, _⟩ => ⟨S2048x4096, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_cst_1 : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_v4 : Ref sig .tc := ⟨.hbm, 41, rfl⟩
abbrev main_call0_v5 : Ref sig .tc := ⟨.hbm, 42, rfl⟩
abbrev main_call0_cst_2 : Ref sig .tc := ⟨.hbm, 43, rfl⟩
abbrev main_call0_v6 : Ref sig .tc := ⟨.hbm, 44, rfl⟩
abbrev main_call0_v7 : Ref sig .tc := ⟨.hbm, 45, rfl⟩
abbrev main_v23 : Ref sig .tc := ⟨.hbm, 46, rfl⟩

abbrev nD : Nat := 1
abbrev τ : Topo := Topo.v7x

variable {F : FTy → Type} [FloatOps F]

class Facts₀ : Prop where
  bcast_S_S20000x4096 : S_.BroadcastsInDim S20000x4096 (![] : Fin 0 → Fin S20000x4096.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  scatter_S20000x4096_S2000000x2_S2000000_n_01_01_1_wf : ScatterDims.WF S20000x4096 S2000000x2 S2000000 [] [0, 1] [0, 1] 1
  dot_S2048x20000_S20000x4096_S2048x4096_1_0_0_1_n_n_wf : DotDims.WF S2048x20000 S20000x4096 S2048x4096 [1] [0] [0] [1] [] []

variable [Facts₀]

def scatter_S20000x4096_S2000000x2_S2000000_n_01_01_1 : ScatterDims S20000x4096 S2000000x2 S2000000 where
  updateWindowDims := []
  insertedWindowDims := [0, 1]
  scatterDimsToOperandDims := [0, 1]
  indexVectorDim := 1
  wf := scatter_S20000x4096_S2000000x2_S2000000_n_01_01_1_wf
def dot_S2048x20000_S20000x4096_S2048x4096_1_0_0_1_n_n : DotDims S2048x20000 S20000x4096 S2048x4096 where
  lhsContracting := [1]
  rhsContracting := [0]
  lhsNonContracting := [0]
  rhsNonContracting := [1]
  lhsBatch := []
  rhsBatch := []
  wf := dot_S2048x20000_S20000x4096_S2048x4096_1_0_0_1_n_n_wf

class Facts : Prop extends Facts₀ where

variable [Facts]
-- ==== Proof.Pieces.lean ====
/-
  What one grid point of the tiled product leaves behind, as values.
  The accumulator block after a point is `acc + A·B` of the point's two input blocks (at the first
  point of a run of twenty the accumulator is first set to zero); at the last point of a run the
  output block is the exponential-linear unit of the accumulator plus the bias row.
-/
import proofs.«181732_j9337258902417_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- A middle point of a run: the accumulator `xs0` becomes `xs0 + x0·x1`. -/
theorem scratch_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .f32) (x2 : Vec F S1x1024 .f32) (xs0 : Vec F S1024x1024 .f32) :
    sout0_B_0 c i arg3 harg3 arg4 harg4 arg5 harg5 arg6 harg6 scM0_0 (Memref.isWhole_whole _) hc0 hc1 x0 x1 x2 xs0 = k0_pay2 x1 xs0 x0 := by
  unfold sout0_B_0
  rw [View.read_writes_eq_canon _ _ _ (scover0_B_0 c i arg3 harg3 arg4 harg4 arg5 harg5 arg6 harg6 scM0_0 (Memref.isWhole_whole _) hc0 hc1 x0 x1 x2 xs0)]
  unfold kernelRun0_B
  dsimp only
  rw [View.canon_unit_zero hz]
  simp only [View.readAt_eq_ld, harg3.read_unread, harg4.read_unread, (Memref.isWhole_whole cc0_scratch0).read_unread, View.ld_unit_zero (S := S1024x1024) hz]

/-- The last point of a run: the accumulator likewise becomes `xs0 + x0·x1`. -/
theorem scratch_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .f32) (x2 : Vec F S1x1024 .f32) (xs0 : Vec F S1024x1024 .f32) :
    sout0_C_0 c i arg3 harg3 arg4 harg4 arg5 harg5 arg6 harg6 scM0_0 (Memref.isWhole_whole _) hc0 hc1 x0 x1 x2 xs0 = k0_pay2 x1 xs0 x0 := by
  unfold sout0_C_0
  rw [View.read_writes_eq_canon _ _ _ (scover0_C_0 c i arg3 harg3 arg4 harg4 arg5 harg5 arg6 harg6 scM0_0 (Memref.isWhole_whole _) hc0 hc1 x0 x1 x2 xs0)]
  unfold kernelRun0_C
  dsimp only
  sl_unfold_words
  rw [View.canon_unit_zero hz]
  simp only [View.readAt_eq_ld, harg3.read_unread, harg4.read_unread, (Memref.isWhole_whole cc0_scratch0).read_unread, View.ld_unit_zero (S := S1024x1024) hz]

/-- The last point of a run: the output block is the epilogue of the new accumulator and the bias row. -/
theorem out_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .f32) (x2 : Vec F S1x1024 .f32) (xs0 : Vec F S1024x1024 .f32) :
    out0_C_3 c i arg3 harg3 arg4 harg4 arg5 harg5 arg6 harg6 scM0_0 (Memref.isWhole_whole _) hc0 hc1 x0 x1 x2 xs0 = k0_pay3 (k0_pay2 x1 xs0 x0) x2 := by
  unfold out0_C_3
  rw [View.read_writes_eq_canon _ _ _ (cover0_C_3 c i arg3 harg3 arg4 harg4 arg5 harg5 arg6 harg6 scM0_0 (Memref.isWhole_whole _) hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, (Memref.isWhole_whole cc0_scratch0).read_unread, View.ld_unit_zero (S := S1024x1024) hz, View.ld_unit_zero (S := S1x1024) hz]

/-- The first point of a run: the accumulator is set to zero, then becomes `0 + x0·x1`. -/
theorem scratch_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .f32) (x2 : Vec F S1x1024 .f32) :
    sout0_A_0 c i arg3 harg3 arg4 harg4 arg5 harg5 arg6 harg6 scM0_0 (Memref.isWhole_whole _) hc0 hc1 x0 x1 x2 = k0_pay2 x1 k0_pay1 x0 := by
  unfold sout0_A_0
  rw [View.read_writes_eq_canon _ _ _ (scover0_A_0 c i arg3 harg3 arg4 harg4 arg5 harg5 arg6 harg6 scM0_0 (Memref.isWhole_whole _) hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

end Cert.KernelIdeal.Hand

end
-- ==== Proof.EluLaw.lean ====
/-
  The exponential-linear unit on the extended reals, and the two float words its spellings use.
  `elu z` is `z` above zero and `exp z - 1` at or below it (so `-1` at `⊥`, by `exp ⊥ = 0`).
-/
import Idealize.ShloMosaic.PureOps.Ideal

noncomputable section

namespace Cert.Bridge

open Idealize.ShloMosaic

/-- The word `+0.0` denotes `0`. -/
theorem ofBits_zero : Ideal.ofBits .f32 0x00000000#32 = 0 := by
  simp [Ideal.ofBits, Ideal.ieee]

/-- The word `1.0` denotes `1`. -/
theorem ofBits_one : Ideal.ofBits .f32 0x3F800000#32 = 1 := by
  simp [Ideal.ofBits, Ideal.ieee, -EReal.coe_mul]; norm_num

/-- The exponential-linear unit: the identity above zero, `exp z - 1` elsewhere. -/
def elu (z : EReal) : EReal := if 0 < z then z else Ideal.exp z - 1

end Cert.Bridge

end
-- ==== Proof.KVal.lean ====
/-
  The body's three stored values read at an index, over the extended reals:
  the zero block is `0`; the accumulator update is `acc + ∑ₖ a(p,k)·b(k,q)` (the narrowing of the
  right factor is the identity there); the epilogue is the exponential-linear unit of the
  accumulator plus the bias row.
-/
import proofs.«181732_j9337258902417_2_alg».proof.Proof.Gen.KernelIdeal.Skeleton
import proofs.«181732_j9337258902417_2_alg».proof.Proof.EluLaw
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Hand

open Cert.KernelIdeal Cert.KernelIdeal.Gen

/-- The product of two 1024-blocks at an entry: the sum over the shared axis. -/
theorem mm_apply (l : FVec Ideal S1024x1024 .bf16) (r : FVec Ideal S1024x1024 .bf16) (p q : Fin 1024) :
    matmul (F := Ideal) dot_S1024x1024_S1024x1024_S1024x1024_1_0_0_1_n_n none l r (constant S1024x1024 .f32 0x00000000#32) (ix2 p q)
      = ∑ kk : Fin 1024, l (ix2 p kk) * r (ix2 kk q) := by
  refine (Ideal.matmul_constant_zero_apply dot_S1024x1024_S1024x1024_S1024x1024_1_0_0_1_n_n none l r (ix2 p q)).trans ?_
  rw [← Equiv.sum_comp (contrEquiv1 dot_S1024x1024_S1024x1024_S1024x1024_1_0_0_1_n_n 1024 rfl rfl).symm]
  refine Finset.sum_congr rfl fun kk _ => ?_
  have hl : dot_S1024x1024_S1024x1024_S1024x1024_1_0_0_1_n_n.lhsIdx (ix2 p q) ((contrEquiv1 dot_S1024x1024_S1024x1024_S1024x1024_1_0_0_1_n_n 1024 rfl rfl).symm kk) = ix2 p kk := by
    funext a; apply Fin.ext
    match a with
    | ⟨0, _⟩ => rfl
    | ⟨1, _⟩ =>
      exact (DotDims.lhsIdx_val_of_single dot_S1024x1024_S1024x1024_S1024x1024_1_0_0_1_n_n (cl := 1) rfl (ix2 p q) _).trans
        (contrEquiv1_symm_val dot_S1024x1024_S1024x1024_S1024x1024_1_0_0_1_n_n 1024 rfl rfl kk)
  have hr : dot_S1024x1024_S1024x1024_S1024x1024_1_0_0_1_n_n.rhsIdx (ix2 p q) ((contrEquiv1 dot_S1024x1024_S1024x1024_S1024x1024_1_0_0_1_n_n 1024 rfl rfl).symm kk) = ix2 kk q := by
    funext a; apply Fin.ext
    match a with
    | ⟨0, _⟩ =>
      exact (DotDims.rhsIdx_val_of_single dot_S1024x1024_S1024x1024_S1024x1024_1_0_0_1_n_n (cr := 0) rfl (ix2 p q) _).trans
        (contrEquiv1_symm_val dot_S1024x1024_S1024x1024_S1024x1024_1_0_0_1_n_n 1024 rfl rfl kk)
    | ⟨1, _⟩ => rfl
  rw [hl, hr]

/-- The zero block. -/
theorem pay1_apply (i : S1024x1024.Idx) : k0_pay1 (F := Ideal) i = 0 := by
  unfold k0_pay1
  simp only [shapeCast_self]
  exact Cert.Bridge.ofBits_zero

/-- The accumulator update at an entry. -/
theorem pay2_apply (v3 : Vec Ideal S1024x1024 .f32) (v6 : Vec Ideal S1024x1024 .f32) (v7 : Vec Ideal S1024x1024 .bf16) (p q : Fin 1024) :
    k0_pay2 (F := Ideal) v3 v6 v7 (ix2 p q) = v6 (ix2 p q) + ∑ kk : Fin 1024, v7 (ix2 p kk) * v3 (ix2 kk q) := by
  unfold k0_pay2
  simp only [shapeCast_self]
  show v6 (ix2 p q) + matmul (F := Ideal) dot_S1024x1024_S1024x1024_S1024x1024_1_0_0_1_n_n none v7 (truncf .bf16 v3 bitsLt_bf16_f32) (constant S1024x1024 .f32 0x00000000#32) (ix2 p q) = _
  rw [mm_apply]
  rfl

/-- The epilogue at an entry. -/
theorem pay3_apply (v17 : Vec Ideal S1024x1024 .f32) (v18 : Vec Ideal S1x1024 .f32) (p q : Fin 1024) :
    k0_pay3 (F := Ideal) v17 v18 (ix2 p q) = Cert.Bridge.elu (v17 (ix2 p q) + v18 (ix2 (0 : Fin 1) q)) := by
  unfold k0_pay3
  simp only [shapeCast_self]
  have hb : broadcastTo S1024x1024 v18 broadcasts_S1x1024_S1024x1024 (ix2 p q) = v18 (ix2 (0 : Fin 1) q) :=
    broadcastTo_1b_ab_apply v18 broadcasts_S1x1024_S1024x1024 p q
  show Scalar.select (Ideal.cmp .ogt (v17 (ix2 p q) + broadcastTo S1024x1024 v18 broadcasts_S1x1024_S1024x1024 (ix2 p q)) (Ideal.ofBits .f32 0x00000000#32))
      (v17 (ix2 p q) + broadcastTo S1024x1024 v18 broadcasts_S1x1024_S1024x1024 (ix2 p q))
      (Ideal.exp (v17 (ix2 p q) + broadcastTo S1024x1024 v18 broadcasts_S1x1024_S1024x1024 (ix2 p q)) - Ideal.ofBits .f32 0x3F800000#32) = _
  rw [hb, Cert.Bridge.ofBits_zero, Cert.Bridge.ofBits_one]
  generalize v17 (ix2 p q) + v18 (ix2 (0 : Fin 1) q) = z
  unfold Cert.Bridge.elu Ideal.cmp
  by_cases h : 0 < z
  · rw [if_pos h, decide_eq_true h]; exact select_one _ _
  · rw [if_neg h, decide_eq_false h]; exact select_zero _ _

end Cert.KernelIdeal.Hand

end
-- ==== Proof.KFold.lean ====
/-
  The accumulator over a run of twenty grid points, and the output block at the run's last point.
  After the point at offset `j` of its run the accumulator holds, at the entry `(p, q)`,
  `0 + ∑_{s ≤ j} ∑ₖ a_s(p,k)·b_s(k,q)`, the blocks `a_s`, `b_s` those of the run's points; the last
  point writes back the exponential-linear unit of that sum plus the bias row.
-/
import proofs.«181732_j9337258902417_2_alg».proof.Proof.Gen.KernelIdeal.Value
import proofs.«181732_j9337258902417_2_alg».proof.Proof.Pieces
import proofs.«181732_j9337258902417_2_alg».proof.Proof.KVal

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- The left, right and bias blocks of point `n`, typed as plain blocks. -/
def blkA (c : Dev nD) (n : ℕ) (h : n < cfg0.N) : Vec Ideal S1024x1024 .bf16 := iblk m c 0 ⟨n, h⟩
def blkB (c : Dev nD) (n : ℕ) (h : n < cfg0.N) : Vec Ideal S1024x1024 .f32 := iblk m c 1 ⟨n, h⟩
def blkBias (c : Dev nD) (n : ℕ) (h : n < cfg0.N) : Vec Ideal S1x1024 .f32 := iblk m c 2 ⟨n, h⟩

/-- The product of point `n`'s two blocks at an entry (zero past the grid, where it is never used). -/
def prodAt (c : Dev nD) (n : ℕ) (i : S1024x1024.Idx) : EReal :=
  if h : n < cfg0.N then ∑ kk : Fin 1024, blkA m c n h (ix2 (i 0) kk) * blkB m c n h (ix2 kk (i 1)) else 0

/-- The accumulator update at any entry, in terms of the index's own coordinates. -/
theorem pay2_at (v3 : Vec Ideal S1024x1024 .f32) (v6 : Vec Ideal S1024x1024 .f32) (v7 : Vec Ideal S1024x1024 .bf16) (i : S1024x1024.Idx) :
    k0_pay2 (F := Ideal) v3 v6 v7 i = v6 i + ∑ kk : Fin 1024, v7 (ix2 (i 0) kk) * v3 (ix2 kk (i 1)) := by
  obtain ⟨p, q, rfl⟩ : ∃ (p q : Fin 1024), i = ix2 p q := ⟨i 0, i 1, eq_ix2 i⟩
  exact pay2_apply v3 v6 v7 p q

/-- What a point of a run leaves in the accumulator over what the point before left, at an entry: the first point
    of a run starts from zero, every other point adds its product. -/
theorem scAt_first (c : Dev nD) (n : ℕ) (h : n < cfg0.N) (h0 : n % 20 = 0) (acc : Vec Ideal S1024x1024 .f32) (i : S1024x1024.Idx) :
    Value.scAt0_0 m c n h acc i = 0 + prodAt m c n i := by
  have hN : n < 160 := lt_of_lt_of_eq h (show cfg0.N = 160 from N_0)
  have h1 : ¬ n % 20 = 19 := by omega
  unfold Value.scAt0_0
  rw [dif_pos h0, dif_neg h1]
  refine (congrFun (scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))) i).trans ?_
  refine (pay2_at _ _ _ i).trans ?_
  rw [pay1_apply]
  unfold prodAt
  rw [dif_pos h]
  rfl

theorem scAt_next (c : Dev nD) (n : ℕ) (h : n < cfg0.N) (h0 : ¬ n % 20 = 0) (acc : Vec Ideal S1024x1024 .f32) (i : S1024x1024.Idx) :
    Value.scAt0_0 m c n h acc i = acc i + prodAt m c n i := by
  unfold Value.scAt0_0
  rw [dif_neg h0]
  by_cases h1 : n % 20 = 19
  · rw [dif_pos h1]
    refine (congrFun (scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc) i).trans ?_
    refine (pay2_at _ _ _ i).trans ?_
    unfold prodAt
    rw [dif_pos h]
    rfl
  · rw [dif_neg h1]
    refine (congrFun (scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) acc) i).trans ?_
    refine (pay2_at _ _ _ i).trans ?_
    unfold prodAt
    rw [dif_pos h]
    rfl

/-- The accumulator after point `t`: the sum of the products of its run's points up to `t`. -/
theorem scratch_after (c : Dev nD) (t : Fin cfg0.N) (i : S1024x1024.Idx) :
    (outsAt0 m c t.val t.isLt).2 i = 0 + ∑ s ∈ Finset.range (t.val % 20 + 1), prodAt m c (20 * (t.val / 20) + s) i := by
  rw [Value.soutsAt0_0_eq m c t]
  refine Pipeline.accAt_add_apply (fun n h => Value.scAt0_0 m c n h (VS0_0.read (Elt Ideal) VS0_0.junk)) (Value.scAt0_0 m c) (fun _ => 0) (prodAt m c) (20 * (t.val / 20)) 19 ?_ ?_ (t.val % 20) (by omega) _ i
  · intro h i
    exact scAt_first m c _ h (by omega) _ i
  · intro n h acc i hlt hle
    exact scAt_next m c n h (by omega) acc i

end Cert.KernelIdeal.Hand

end
-- ==== Proof.KBlocks.lean ====
/-
  Which entries of the three operand arrays a grid point's blocks hold.
  Point `n` = (i, j, k) in row-major order over the grid 2 × 4 × 20, so `i = n / 80`, `j = n / 20 % 4`,
  `k = n % 20`: the left block is rows `1024 i …`, columns `1024 k …` of the padded input; the right block
  rows `1024 k …`, columns `1024 j …` of the scattered matrix; the bias block columns `1024 j …` of the bias row.
-/
import proofs.«181732_j9337258902417_2_alg».proof.Proof.KFold

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- The printed index maps over the grid, decided once. -/
theorem idx_facts : ∀ t : Fin cfg0.N,
    win0_0.index t (0 : Fin 2) = t.val / 80 ∧ win0_0.index t (1 : Fin 2) = t.val % 20
    ∧ win0_1.index t (0 : Fin 2) = t.val % 20 ∧ win0_1.index t (1 : Fin 2) = t.val / 20 % 4
    ∧ win0_2.index t (0 : Fin 2) = 0 ∧ win0_2.index t (1 : Fin 2) = t.val / 20 % 4
    ∧ win0_3.index t (0 : Fin 2) = t.val / 80 ∧ win0_3.index t (1 : Fin 2) = t.val / 20 % 4 :=
  (by decide +kernel : ∀ t : Fin grid0.N, _)

theorem blkA_apply (c : Dev nD) (n : ℕ) (h : n < cfg0.N) (p kk : Fin 1024) :
    blkA m c n h (ix2 p kk)
      = (V m c main_v20 : S2048x20480.Idx → EReal) (ix2 (⟨1024 * (n / 80) + p.val, by have := lt_of_lt_of_eq h (show cfg0.N = 160 from N_0); omega⟩ : Fin 2048) (⟨1024 * (n % 20) + kk.val, by omega⟩ : Fin 20480)) := by
  obtain ⟨e0, e1, -⟩ := idx_facts ⟨n, h⟩
  unfold blkA iblk
  rw [View.read_apply]
  show V m c main_v20 _ = V m c main_v20 _
  refine congrArg (V m c main_v20) ?_
  funext a; apply Fin.ext
  match a with
  | ⟨0, _⟩ => show win0_0.index ⟨n, h⟩ (0 : Fin 2) * 1024 + 1 * p.val = 1024 * (n / 80) + p.val; rw [e0]; show n / 80 * 1024 + 1 * p.val = _; omega
  | ⟨1, _⟩ => show win0_0.index ⟨n, h⟩ (1 : Fin 2) * 1024 + 1 * kk.val = 1024 * (n % 20) + kk.val; rw [e1]; show n % 20 * 1024 + 1 * kk.val = _; omega

/-- A block of the right operand read through its window, for any contents of the array. -/
theorem read1 (G : S20480x4096.Idx → EReal) (n : ℕ) (h : n < cfg0.N) (kk q : Fin 1024) :
    ((cfg0.win 1).blk ⟨n, h⟩).view.read (Elt Ideal) G (ix2 kk q)
      = G (ix2 (⟨1024 * (n % 20) + kk.val, by omega⟩ : Fin 20480) (⟨1024 * (n / 20 % 4) + q.val, by omega⟩ : Fin 4096)) := by
  obtain ⟨-, -, e0, e1, -⟩ := idx_facts ⟨n, h⟩
  rw [View.read_apply]
  refine congrArg G ?_
  funext a; apply Fin.ext
  match a with
  | ⟨0, _⟩ => show win0_1.index ⟨n, h⟩ (0 : Fin 2) * 1024 + 1 * kk.val = 1024 * (n % 20) + kk.val; rw [e0]; show n % 20 * 1024 + 1 * kk.val = _; omega
  | ⟨1, _⟩ => show win0_1.index ⟨n, h⟩ (1 : Fin 2) * 1024 + 1 * q.val = 1024 * (n / 20 % 4) + q.val; rw [e1]; show n / 20 % 4 * 1024 + 1 * q.val = _; omega

theorem blkB_apply (c : Dev nD) (n : ℕ) (h : n < cfg0.N) (kk q : Fin 1024) :
    blkB m c n h (ix2 kk q)
      = V m c main_v18 (ix2 (⟨1024 * (n % 20) + kk.val, by omega⟩ : Fin 20480) (⟨1024 * (n / 20 % 4) + q.val, by omega⟩ : Fin 4096)) :=
  read1 (V m c main_v18) n h kk q

theorem blkBias_apply (c : Dev nD) (n : ℕ) (h : n < cfg0.N) (q : Fin 1024) :
    blkBias m c n h (ix2 (0 : Fin 1) q)
      = (V m c main_v21 : S1x4096.Idx → EReal) (ix2 (0 : Fin 1) (⟨1024 * (n / 20 % 4) + q.val, by omega⟩ : Fin 4096)) := by
  obtain ⟨-, -, -, -, e0, e1, -⟩ := idx_facts ⟨n, h⟩
  unfold blkBias iblk
  rw [View.read_apply]
  show V m c main_v21 _ = V m c main_v21 _
  refine congrArg (V m c main_v21) ?_
  funext a; apply Fin.ext
  match a with
  | ⟨0, _⟩ => show win0_2.index ⟨n, h⟩ (0 : Fin 2) * 1 + 1 * 0 = 0; rw [e0]
  | ⟨1, _⟩ => show win0_2.index ⟨n, h⟩ (1 : Fin 2) * 1024 + 1 * q.val = 1024 * (n / 20 % 4) + q.val; rw [e1]; show n / 20 % 4 * 1024 + 1 * q.val = _; omega

end Cert.KernelIdeal.Hand

end
-- ==== Proof.KRes.lean ====
/-
  The kernel program's result as one function of its three operand arrays.
  Entry `(r, c)` is the exponential-linear unit of `(0 + ∑_{s < 20} ∑ₖ A(r, 1024 s + k)·B(1024 s + k, c)) + bias(c)`:
  one product per block of 1024 positions of the shared axis, added in block order.
-/
import proofs.«181732_j9337258902417_2_alg».proof.KernelIdeal
import proofs.«181732_j9337258902417_2_alg».proof.Proof.EluLaw
import Idealize.ShloMosaic.PureOps.Ideal
import Idealize.ShloMosaic.Lib.ValueIdx

noncomputable section

open Idealize.ShloMosaic Idealize.ShloMosaic.ValueIdx

namespace Cert.KernelIdeal.Hand

open Cert.KernelIdeal

/-- The product over the `s`-th block of 1024 positions of the shared axis (zero for `s ≥ 20`, never used). -/
def blockProd (A : S2048x20480.Idx → EReal) (B : S20480x4096.Idx → EReal) (s : ℕ) (r : Fin 2048) (c : Fin 4096) : EReal :=
  if hs : s < 20 then ∑ kk : Fin 1024, A (ix2 r (⟨1024 * s + kk.val, by omega⟩ : Fin 20480)) * B (ix2 (⟨1024 * s + kk.val, by omega⟩ : Fin 20480) c) else 0

/-- The result at `(r, c)`. -/
def resAt (A : S2048x20480.Idx → EReal) (B : S20480x4096.Idx → EReal) (bias : S1x4096.Idx → EReal) (r : Fin 2048) (c : Fin 4096) : EReal :=
  Cert.Bridge.elu ((0 + ∑ s ∈ Finset.range 20, blockProd A B s r c) + bias (ix2 (0 : Fin 1) c))

/-- The result array. -/
def res (A : S2048x20480.Idx → EReal) (B : S20480x4096.Idx → EReal) (bias : S1x4096.Idx → EReal) : S2048x4096.Idx → EReal :=
  fun i => resAt A B bias (i 0) (i 1)

end Cert.KernelIdeal.Hand

end
-- ==== Proof.KFinal.lean ====
/-
  The kernel program's result array is `res` of the three operand arrays the region finds: the run of
  twenty grid points that owns an entry's block accumulates one product per point, and the run's last
  point writes back the exponential-linear unit of the accumulator plus the bias row; the written
  blocks tile the array.
-/
import proofs.«181732_j9337258902417_2_alg».proof.Proof.KBlocks
import proofs.«181732_j9337258902417_2_alg».proof.Proof.KRes

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The block product of run `g`'s point at offset `s`, for any contents of the two arrays. -/
theorem prod_core (A : S2048x20480.Idx → EReal) (B : S20480x4096.Idx → EReal) (g : ℕ) (hg : g < 8) (s : ℕ) (hs : s < 20) (p q : Fin 1024) :
    (∑ kk : Fin 1024, A (ix2 (⟨1024 * ((20 * g + s) / 80) + p.val, by omega⟩ : Fin 2048) (⟨1024 * ((20 * g + s) % 20) + kk.val, by omega⟩ : Fin 20480))
        * B (ix2 (⟨1024 * ((20 * g + s) % 20) + kk.val, by omega⟩ : Fin 20480) (⟨1024 * ((20 * g + s) / 20 % 4) + q.val, by omega⟩ : Fin 4096)))
      = blockProd A B s (⟨1024 * (g / 4) + p.val, by omega⟩ : Fin 2048) (⟨1024 * (g % 4) + q.val, by omega⟩ : Fin 4096) := by
  unfold blockProd
  rw [dif_pos hs]
  refine Finset.sum_congr rfl fun kk _ => ?_
  have e1 : (20 * g + s) / 80 = g / 4 := by omega
  have e2 : (20 * g + s) % 20 = s := by omega
  have e3 : (20 * g + s) / 20 % 4 = g % 4 := by omega
  have a1 : (⟨1024 * ((20 * g + s) / 80) + p.val, by omega⟩ : Fin 2048) = ⟨1024 * (g / 4) + p.val, by omega⟩ := Fin.ext (by show 1024 * ((20 * g + s) / 80) + p.val = 1024 * (g / 4) + p.val; rw [e1])
  have a2 : (⟨1024 * ((20 * g + s) % 20) + kk.val, by omega⟩ : Fin 20480) = ⟨1024 * s + kk.val, by omega⟩ := Fin.ext (by show 1024 * ((20 * g + s) % 20) + kk.val = 1024 * s + kk.val; rw [e2])
  have a3 : (⟨1024 * ((20 * g + s) / 20 % 4) + q.val, by omega⟩ : Fin 4096) = ⟨1024 * (g % 4) + q.val, by omega⟩ := Fin.ext (by show 1024 * ((20 * g + s) / 20 % 4) + q.val = 1024 * (g % 4) + q.val; rw [e3])
  rw [a1, a2, a3]

variable (m : (ℓ : Loc nD τ sig) → Buf (Elt Ideal) ℓ) (ρ : Dev nD → PrngReg)

/-- A point's product at a block entry is the corresponding block product of the operand arrays. -/
theorem prodAt_eq (c : Dev nD) (g : ℕ) (hg : g < 8) (s : ℕ) (hs : s < 20) (p q : Fin 1024) :
    prodAt m c (20 * g + s) (ix2 p q)
      = blockProd (V m c main_v20) (V m c main_v18) s (⟨1024 * (g / 4) + p.val, by omega⟩ : Fin 2048) (⟨1024 * (g % 4) + q.val, by omega⟩ : Fin 4096) := by
  have hN : 20 * g + s < cfg0.N := by rw [show cfg0.N = 160 from N_0]; omega
  unfold prodAt
  rw [dif_pos hN]
  refine (Finset.sum_congr rfl fun kk _ => ?_).trans (prod_core (V m c main_v20) (V m c main_v18) g hg s hs p q)
  rw [blkA_apply m c _ hN p kk, blkB_apply m c _ hN kk q]

/-- What a run's last point writes back, at a block entry. -/
theorem out_at (c : Dev nD) (t : Fin cfg0.N) (h1 : t.val % 20 = 19) (p q : Fin 1024) :
    k0_pay3 (F := Ideal) ((outsAt0 m c t.val t.isLt).2) (iblk m c 2 t) (ix2 p q)
      = resAt (V m c main_v20) (V m c main_v18) (V m c main_v21)
          (⟨1024 * (t.val / 20 / 4) + p.val, by have := lt_of_lt_of_eq t.isLt (show cfg0.N = 160 from N_0); omega⟩ : Fin 2048)
          (⟨1024 * (t.val / 20 % 4) + q.val, by omega⟩ : Fin 4096) := by
  have hN : t.val < 160 := lt_of_lt_of_eq t.isLt (show cfg0.N = 160 from N_0)
  refine (pay3_apply _ _ p q).trans ?_
  rw [scratch_after m c t (ix2 p q), h1]
  have hb : (iblk m c 2 t) (ix2 (0 : Fin 1) q) = (V m c main_v21 : S1x4096.Idx → EReal) (ix2 (0 : Fin 1) (⟨1024 * (t.val / 20 % 4) + q.val, by omega⟩ : Fin 4096)) :=
    blkBias_apply m c t.val t.isLt q
  rw [hb]
  have hsum : ∑ s ∈ Finset.range (19 + 1), prodAt m c (20 * (t.val / 20) + s) (ix2 p q)
      = ∑ s ∈ Finset.range 20, blockProd (V m c main_v20) (V m c main_v18) s (⟨1024 * (t.val / 20 / 4) + p.val, by omega⟩ : Fin 2048) (⟨1024 * (t.val / 20 % 4) + q.val, by omega⟩ : Fin 4096) :=
    Finset.sum_congr rfl fun s hs => prodAt_eq m c (t.val / 20) (by omega) s (Finset.mem_range.mp hs) p q
  rw [hsum]
  rfl

/-- The same at any block entry. -/
theorem out_at' (c : Dev nD) (t : Fin cfg0.N) (h1 : t.val % 20 = 19) (y : S1024x1024.Idx) :
    k0_pay3 (F := Ideal) ((outsAt0 m c t.val t.isLt).2) (iblk m c 2 t) y
      = resAt (V m c main_v20) (V m c main_v18) (V m c main_v21)
          (⟨1024 * (t.val / 20 / 4) + (y 0).val, by have := lt_of_lt_of_eq t.isLt (show cfg0.N = 160 from N_0); have := idx2_lt0 y; omega⟩ : Fin 2048)
          (⟨1024 * (t.val / 20 % 4) + (y 1).val, by have := idx2_lt1 y; omega⟩ : Fin 4096) := by
  obtain ⟨p, q, rfl⟩ : ∃ (p q : Fin 1024), y = ix2 p q := ⟨y 0, y 1, eq_ix2 y⟩
  exact out_at m c t h1 p q

/-- WHAT A RUN'S LAST POINT WRITES BACK is its block of `res` of the operand arrays. -/
theorem flushed_eq (c : Dev nD) (t : Fin cfg0.N) (hf : (cfg0.win 3).flush t = true) :
    (dats m 0 c).flushed 3 t = ((cfg0.win 3).blk t).view.read (Elt Ideal) (res (V m c main_v20) (V m c main_v18) (V m c main_v21)) := by
  have h1 : t.val % 20 = 19 := (flush0_3 t).mp hf
  have h0 : ¬ t.val % 20 = 0 := by omega
  obtain ⟨-, -, -, -, -, -, e6, e7⟩ := idx_facts t
  rw [Value.flushed3_C m c t h0 h1]
  have hsc : k0_pay2 (F := Ideal) (iblk m c 1 t) (outsAt0 m c (t.val - 1) (Nat.lt_of_le_of_lt (Nat.sub_le _ _) t.isLt)).2 (iblk m c 0 t) = (outsAt0 m c t.val t.isLt).2 := by
    rw [outsAt0_C m c t h0 h1]
    dsimp only
    exact (scratch_C (F := Ideal) c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm
  rw [out_C (F := Ideal) c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, hsc]
  funext j
  rw [View.read_apply]
  show k0_pay3 (F := Ideal) ((outsAt0 m c t.val t.isLt).2) (iblk m c 2 t) j = res (V m c main_v20) (V m c main_v18) (V m c main_v21) (((cfg0.win 3).blk t).view.emb j)
  refine (out_at' m c t h1 j).trans ?_
  generalize V m c main_v20 = A
  generalize V m c main_v18 = B
  generalize V m c main_v21 = bias
  show resAt A B bias _ _ = resAt A B bias ((((cfg0.win 3).blk t).view.emb j) 0) ((((cfg0.win 3).blk t).view.emb j) 1)
  have hj0 : (j 0).val < 1024 := (j 0).isLt
  have hj1 : (j 1).val < 1024 := (j 1).isLt
  have hN : t.val < 160 := lt_of_lt_of_eq t.isLt (show cfg0.N = 160 from N_0)
  refine congrArg₂ (resAt A B bias) (Fin.ext ?_) (Fin.ext ?_)
  · show 1024 * (t.val / 20 / 4) + (j 0).val = win0_3.index t (0 : Fin 2) * 1024 + 1 * (j 0).val
    rw [e6]; omega
  · show 1024 * (t.val / 20 % 4) + (j 1).val = win0_3.index t (1 : Fin 2) * 1024 + 1 * (j 1).val
    rw [e7]; omega

/-- An index of the array is in point `t`'s block iff each coordinate is in the block's range on its axis. -/
theorem mem_blk (t : Fin cfg0.N) (i : S2048x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v22).slice (win0_3.rect t)).set ↔ _
  rw [View.set_slice_whole, Rect.mem_set_unit]
  exact Iff.rfl

/-- Every entry lies in the block some run's last point writes back. -/
theorem cover (i : S2048x4096.Idx) : ∃ t : Fin cfg0.N, (cfg0.win 3).flush t = true ∧ i ∈ ((cfg0.win 3).blk t).view.set := by
  have hi0 : (i 0).val < 2048 := idx2_lt0 i
  have hi1 : (i 1).val < 4096 := idx2_lt1 i
  have hN : cfg0.N = 160 := N_0
  refine ⟨⟨80 * ((i 0).val / 1024) + 20 * ((i 1).val / 1024) + 19, by rw [hN]; omega⟩, (flush0_3 _).mpr (by show (80 * ((i 0).val / 1024) + 20 * ((i 1).val / 1024) + 19) % 20 = 19; omega), ?_⟩
  obtain ⟨-, -, -, -, -, -, e6, e7⟩ := idx_facts ⟨80 * ((i 0).val / 1024) + 20 * ((i 1).val / 1024) + 19, by rw [hN]; omega⟩
  rw [mem_blk]
  intro a
  match a with
  | ⟨0, _⟩ =>
    show win0_3.index _ (0 : Fin 2) * 1024 ≤ (i 0).val ∧ (i 0).val < win0_3.index _ (0 : Fin 2) * 1024 + 1024
    rw [e6]
    show (80 * ((i 0).val / 1024) + 20 * ((i 1).val / 1024) + 19) / 80 * 1024 ≤ (i 0).val ∧ (i 0).val < (80 * ((i 0).val / 1024) + 20 * ((i 1).val / 1024) + 19) / 80 * 1024 + 1024
    omega
  | ⟨1, _⟩ =>
    show win0_3.index _ (1 : Fin 2) * 1024 ≤ (i 1).val ∧ (i 1).val < win0_3.index _ (1 : Fin 2) * 1024 + 1024
    rw [e7]
    show (80 * ((i 0).val / 1024) + 20 * ((i 1).val / 1024) + 19) / 20 % 4 * 1024 ≤ (i 1).val ∧ (i 1).val < (80 * ((i 0).val / 1024) + 20 * ((i 1).val / 1024) + 19) / 20 % 4 * 1024 + 1024
    omega

/-- The result array after the run. -/
theorem final (c : Dev nD) : (dats m 0 c).arrAt 3 cfg0.N = res (V m c main_v20) (V m c main_v18) (V m c main_v21) :=
  (dats m 0 c).arrAt_eq_of_cover 3 (res (V m c main_v20) (V m c main_v18) (V m c main_v21)) (flushed_eq m c) cover

/-- The run, read: the result array at `res` of the operand arrays, the arguments unchanged. -/
theorem run : θ_run defs (onTc (τ := τ) (main (F := Ideal))) ⟨m, fun _ => 0, ρ⟩ fun r => ∀ c : Dev nD,
      r.2.mem ((c : Thread nD τ).loc main_v22) = res (V m c main_v20) (V m c main_v18) (V m c main_v21)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Hand

end
-- ==== Proof.KNorm.lean ====
/-
  The index array the scatter reads. Each column of the (row, column) pairs is cut out, reshaped to a vector, and a
  negative entry is wrapped by adding the extent of its axis (20480 rows, 4096 columns); the two wrapped vectors are put
  back as the columns of a pair array. Read at one entry: the entry itself, the extent added when it is negative.
-/
import proofs.«181732_j9337258902417_2_alg».proof.KernelIdeal
import Idealize.ShloMosaic.Lib.ValueIdx
import Idealize.ShloMosaic.Lib.ValueLayout
import Idealize.ShloMosaic.Lib.IdealHost

noncomputable section

namespace Cert.KernelIdeal.Hand

open Idealize.ShloMosaic Idealize.ShloMosaic.ValueIdx
open Cert.KernelIdeal Cert.KernelIdeal.Facts₀

variable [Cert.KernelIdeal.Facts₀]

/-- The normalized index array, operation by operation as the program composes it: the two columns sliced and
    reshaped, each compared with 0, the extent added, the sum selected where the entry is negative, the two results
    broadcast back to one-column arrays and concatenated along axis 1. -/
def normIdx (ind : IVec S2000000x2 32) : IVec S2000000x2 32 :=
  concatenate S2000000x2 1
    [⟨S2000000x1, broadcastInDim S2000000x1 ![0] bcast_S2000000_S2000000x1_0
        (select
          (cmpi .slt
            (shapeCast S2000000 (extractStridedSlice S2000000x1 ![0, 0] ind slices_S2000000x2_S2000000x1_0_0) shapeCasts_S2000000x1_S2000000)
            (broadcastInDim S2000000 ![] bcast_S_S2000000 (constantI S_ 32 0#32)))
          (addi
            (shapeCast S2000000 (extractStridedSlice S2000000x1 ![0, 0] ind slices_S2000000x2_S2000000x1_0_0) shapeCasts_S2000000x1_S2000000)
            (broadcastInDim S2000000 ![] bcast_S_S2000000 (constantI S_ 32 20480#32)))
          (shapeCast S2000000 (extractStridedSlice S2000000x1 ![0, 0] ind slices_S2000000x2_S2000000x1_0_0) shapeCasts_S2000000x1_S2000000))⟩,
     ⟨S2000000x1, broadcastInDim S2000000x1 ![0] bcast_S2000000_S2000000x1_0
        (select
          (cmpi .slt
            (shapeCast S2000000 (extractStridedSlice S2000000x1 ![0, 1] ind slices_S2000000x2_S2000000x1_0_1) shapeCasts_S2000000x1_S2000000)
            (broadcastInDim S2000000 ![] bcast_S_S2000000 (constantI S_ 32 0#32)))
          (addi
            (shapeCast S2000000 (extractStridedSlice S2000000x1 ![0, 1] ind slices_S2000000x2_S2000000x1_0_1) shapeCasts_S2000000x1_S2000000)
            (broadcastInDim S2000000 ![] bcast_S_S2000000 (constantI S_ 32 4096#32)))
          (shapeCast S2000000 (extractStridedSlice S2000000x1 ![0, 1] ind slices_S2000000x2_S2000000x1_0_1) shapeCasts_S2000000x1_S2000000))⟩]
    concatenates_S2000000x1_S2000000x1_S2000000x2_d1

/-- A word selected on "negative": the word, the addend added when it is negative. -/
theorem select_slt_zero (w d : BitVec 32) :
    Scalar.select (IntOp.cmpi .slt w 0#32) (IntOp.addi w d) w = if w.slt 0#32 then w + d else w := by
  unfold Scalar.select IntOp.cmpi IntOp.addi
  cases hb : w.slt 0#32 <;> simp

/-- Column `k` of the pair array, cut out from offset `o = k` and reshaped to a vector, read at row `n`. -/
theorem col_apply (o : Nat) (hsl : S2000000x2.Slices ![0, o] S2000000x1) (ind : IVec S2000000x2 32) (n : Fin 2000000)
    (k : Fin 2) (hk : k.val = o) :
    shapeCast S2000000 (extractStridedSlice S2000000x1 ![0, o] ind hsl) shapeCasts_S2000000x1_S2000000 (ix1 n)
      = ind (ix2 n k) := by
  have hc : shapeCast S2000000 (extractStridedSlice S2000000x1 ![0, o] ind hsl) shapeCasts_S2000000x1_S2000000 (ix1 n)
      = extractStridedSlice S2000000x1 ![0, o] ind hsl (ix2 n 0) :=
    shapeCast_apply _ _ _ _ (by
      rw [Shape.rowMajor_val_two, Shape.rowMajor_val_one]
      show n.val * 1 + 0 = n.val
      omega)
  rw [hc]
  exact slice2_axis1_apply o ind hsl n 0 k (by rw [hk]; rfl)

/-- A constant word broadcast to a vector, read at row `n`. -/
theorem splat_apply (c : BitVec 32) (n : Fin 2000000) :
    broadcastInDim S2000000 ![] bcast_S_S2000000 (constantI S_ 32 c) (ix1 n) = c := by
  rw [broadcastInDim_scalar_apply, constantI_apply]

/-- A vector wrapped at its negative entries by the addend `c` and laid out as a one-column array, read at row `n`. -/
theorem wrap_apply (r : IVec S2000000 32) (c : BitVec 32) (n : Fin 2000000) :
    broadcastInDim S2000000x1 ![0] bcast_S2000000_S2000000x1_0
        (select (cmpi .slt r (broadcastInDim S2000000 ![] bcast_S_S2000000 (constantI S_ 32 0#32)))
          (addi r (broadcastInDim S2000000 ![] bcast_S_S2000000 (constantI S_ 32 c))) r) (ix2 n 0)
      = if (r (ix1 n)).slt 0#32 then r (ix1 n) + c else r (ix1 n) := by
  refine (broadcastInDim_apply _ _ _ (ix2 n 0 : S2000000x1.Idx) (ix1 n : S2000000.Idx) (fun a => ?_)).trans ?_
  · match a with
    | ⟨0, _⟩ => rfl
  · show Scalar.select (IntOp.cmpi .slt (r (ix1 n)) (broadcastInDim S2000000 ![] bcast_S_S2000000 (constantI S_ 32 0#32) (ix1 n)))
        (IntOp.addi (r (ix1 n)) (broadcastInDim S2000000 ![] bcast_S_S2000000 (constantI S_ 32 c) (ix1 n))) (r (ix1 n)) = _
    rw [splat_apply, splat_apply, select_slt_zero]

/-- The normalized row index of pair `n`: 20480 added when the entry is negative. -/
theorem normIdx_apply0 (ind : IVec S2000000x2 32) (n : Fin 2000000) :
    normIdx ind (ix2 n 0) = (if (ind (ix2 n 0)).slt 0#32 then ind (ix2 n 0) + 20480#32 else ind (ix2 n 0)) := by
  unfold normIdx
  refine (concatenate_pair_apply_left (t := S2000000x2) (s₁ := S2000000x1) (s₂ := S2000000x1) _ _ _ _ (ix2 n 0 : S2000000x2.Idx) rfl (ix2 n 0 : S2000000x1.Idx) (fun b => ?_)).trans ?_
  · match b with
    | ⟨0, _⟩ => rfl
    | ⟨1, _⟩ => rfl
  · rw [wrap_apply, col_apply 0 slices_S2000000x2_S2000000x1_0_0 ind n 0 rfl]

/-- The normalized column index of pair `n`: 4096 added when the entry is negative. -/
theorem normIdx_apply1 (ind : IVec S2000000x2 32) (n : Fin 2000000) :
    normIdx ind (ix2 n 1) = (if (ind (ix2 n 1)).slt 0#32 then ind (ix2 n 1) + 4096#32 else ind (ix2 n 1)) := by
  unfold normIdx
  refine (concatenate_pair_apply_right (t := S2000000x2) (s₁ := S2000000x1) (s₂ := S2000000x1) _ _ _ _ (ix2 n 1 : S2000000x2.Idx) rfl rfl (ix2 n 0 : S2000000x1.Idx) (fun b hb => ?_) ?_).trans ?_
  · match b with
    | ⟨0, _⟩ => rfl
    | ⟨1, _⟩ => exact absurd rfl hb
  · rfl
  · rw [wrap_apply, col_apply 1 slices_S2000000x2_S2000000x1_0_1 ind n 1 rfl]

end Cert.KernelIdeal.Hand

end
-- ==== Proof.KHost.lean ====
/-
  The three operand arrays as the tiled product finds them, as functions of the program's arguments:
  the right operand is the scatter-add of the update values into a zero matrix of 20480 rows at the
  wrapped (row, column) pairs; the left operand is the input narrowed (the identity over the extended
  reals) and padded with 480 zero columns; the bias row is the bias reshaped to one row.
-/
import proofs.«181732_j9337258902417_2_alg».proof.Proof.Gen.KernelIdeal.Frame
import proofs.«181732_j9337258902417_2_alg».proof.Proof.KNorm
import Idealize.ShloMosaic.Lib.Pipeline.Value
import Idealize.ShloMosaic.Lib.StableHlo.Run
import Idealize.ShloMosaic.Lib.Tactic
import Idealize.ShloMosaic.PureOps.Ideal
import Idealize.ShloMosaic.Lib.ValueIdx

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

/-- The bias row. -/
theorem V_bias (c : Dev nD) : (V m c main_v21 : S1x4096.Idx → EReal)
    = shapeCast S1x4096 (m ((c : Thread nD τ).loc main_arg2)) shapeCasts_S4096_S1x4096 := by
  dsimp only [V]
  simp only [hostOps0, hostOps0_1, hostOps0_2, List.flatten_cons, List.flatten_nil, List.append_nil, List.cons_append, List.nil_append]
  after_results
  rfl

/-- The padded left operand. -/
theorem V_left (c : Dev nD) : (V m c main_v20 : S2048x20480.Idx → EReal)
    = pad S2048x20480 ![0, 0] ![0, 480] ![0, 0] (truncf (F := Ideal) .bf16 (m ((c : Thread nD τ).loc main_arg0)) bitsLt_bf16_f32)
        (sitofp (F := Ideal) .bf16 (constantI S_ 32 0#32)) pads_S2048x20000_S2048x20480_000_04800 h_S_ := by
  dsimp only [V]
  simp only [hostOps0, hostOps0_1, hostOps0_2, List.flatten_cons, List.flatten_nil, List.append_nil, List.cons_append, List.nil_append]
  after_results
  rfl

set_option maxHeartbeats 4000000 in
/-- The scattered right operand. -/
theorem V_right (c : Dev nD) : (V m c main_v18 : S20480x4096.Idx → EReal)
    = Host.scatterAdd (F := Ideal) scatter_S20480x4096_S2000000x2_S2000000_n_01_01_1
        (broadcastInDim S20480x4096 ![] bcast_S_S20480x4096 (constant (F := Ideal) S_ .f32 0x00000000#32))
        (normIdx (m ((c : Thread nD τ).loc main_arg3))) (m ((c : Thread nD τ).loc main_arg1)) := by
  dsimp only [V]
  simp only [hostOps0, hostOps0_1, hostOps0_2, List.flatten_cons, List.flatten_nil, List.append_nil, List.cons_append, List.nil_append]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

end Cert.KernelIdeal.Hand

end
-- ==== Proof.RefRun.lean ====
/-
  The reference program's @main as one straight line of its 43 host operations (the outlined
  functions' operations standing at their call sites, over the buffers each call names), and its
  run read back: every weakly fair execution terminates with the result buffer at the operations'
  composed term of the four arguments' launch contents, the arguments unchanged.

  The composed term, in mathematics: the index table's two columns are taken apart, a negative
  entry of column 0 is moved up by 20000 and one of column 1 by 4096, and the columns are put
  back side by side (normIdx); the update vector is scatter-added into the zero matrix at those
  positions (scat); the input matrix is multiplied by that matrix, the bias row is added to every
  row (preAct), and the exponential-linear unit, spelt as two selections around
  exp(.) - 1, is applied element by element (eluTerm).
-/
import proofs.«181732_j9337258902417_2_alg».proof.ReferenceIdeal
import proofs.«181732_j9337258902417_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- Two index columns side by side: the concatenation along axis 1. -/
def cat2 (a b : IVec S2000000x1 32) : IVec S2000000x2 32 :=
  concatenate S2000000x2 1 [⟨S2000000x1, a⟩, ⟨S2000000x1, b⟩] concatenates_S2000000x1_S2000000x1_S2000000x2_d1

/-- @main's 43 operations, in order: its own 28, then the 15 of the exponential-linear unit's
    function with the two selection functions' operations in the place of their calls. -/
abbrev ops : List (HloOp τ sig (Elt F)) :=
  [ nullary main_cst (constant S_ .f32 0x00000000#32),
    unary main_cst main_v0 (broadcastInDim S20000x4096 ![] bcast_S_S20000x4096 : (⟨S_, .f32⟩ : BufTy).Contents (Elt F) → (⟨S20000x4096, .f32⟩ : BufTy).Contents (Elt F)),
    unary main_arg3 main_v1 ((extractStridedSlice S2000000x1 ![0, 0] · slices_S2000000x2_S2000000x1_0_0) : (⟨S2000000x2, .i32⟩ : BufTy).Contents (Elt F) → (⟨S2000000x1, .i32⟩ : BufTy).Contents (Elt F)),
    reshape main_v1 main_v2 rfl shapeCasts_S2000000x1_S2000000,
    unary main_arg3 main_v3 ((extractStridedSlice S2000000x1 ![0, 1] · slices_S2000000x2_S2000000x1_0_1) : (⟨S2000000x2, .i32⟩ : BufTy).Contents (Elt F) → (⟨S2000000x1, .i32⟩ : BufTy).Contents (Elt F)),
    reshape main_v3 main_v4 rfl shapeCasts_S2000000x1_S2000000,
    nullary main_c (constantI S_ 32 0#32),
    unary main_c main_v5 (broadcastInDim S2000000 ![] bcast_S_S2000000 : (⟨S_, .i32⟩ : BufTy).Contents (Elt F) → (⟨S2000000, .i32⟩ : BufTy).Contents (Elt F)),
    binary main_v2 main_v5 main_v6 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 20000#32),
    unary main_c_0 main_v7 (broadcastInDim S2000000 ![] bcast_S_S2000000 : (⟨S_, .i32⟩ : BufTy).Contents (Elt F) → (⟨S2000000, .i32⟩ : BufTy).Contents (Elt F)),
    binary main_v2 main_v7 main_v8 (addi : (⟨S2000000, .i32⟩ : BufTy).Contents (Elt F) → (⟨S2000000, .i32⟩ : BufTy).Contents (Elt F) → (⟨S2000000, .i32⟩ : BufTy).Contents (Elt F)),
    ternary main_v6 main_v8 main_v2 main_v9 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_1 (constantI S_ 32 0#32),
    unary main_c_1 main_v10 (broadcastInDim S2000000 ![] bcast_S_S2000000 : (⟨S_, .i32⟩ : BufTy).Contents (Elt F) → (⟨S2000000, .i32⟩ : BufTy).Contents (Elt F)),
    binary main_v4 main_v10 main_v11 (cmpi .slt : (⟨S2000000, .i32⟩ : BufTy).Contents (Elt F) → (⟨S2000000, .i32⟩ : BufTy).Contents (Elt F) → (⟨S2000000, .i1⟩ : BufTy).Contents (Elt F)),
    nullary main_c_2 (constantI S_ 32 4096#32),
    unary main_c_2 main_v12 (broadcastInDim S2000000 ![] bcast_S_S2000000 : (⟨S_, .i32⟩ : BufTy).Contents (Elt F) → (⟨S2000000, .i32⟩ : BufTy).Contents (Elt F)),
    binary main_v4 main_v12 main_v13 (addi : (⟨S2000000, .i32⟩ : BufTy).Contents (Elt F) → (⟨S2000000, .i32⟩ : BufTy).Contents (Elt F) → (⟨S2000000, .i32⟩ : BufTy).Contents (Elt F)),
    ternary main_v11 main_v13 main_v4 main_v14 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v9 main_v15 (broadcastInDim S2000000x1 ![0] bcast_S2000000_S2000000x1_0 : (⟨S2000000, .i32⟩ : BufTy).Contents (Elt F) → (⟨S2000000x1, .i32⟩ : BufTy).Contents (Elt F)),
    unary main_v14 main_v16 (broadcastInDim S2000000x1 ![0] bcast_S2000000_S2000000x1_0 : (⟨S2000000, .i32⟩ : BufTy).Contents (Elt F) → (⟨S2000000x1, .i32⟩ : BufTy).Contents (Elt F)),
    binary main_v15 main_v16 main_v17 (cat2 : (⟨S2000000x1, .i32⟩ : BufTy).Contents (Elt F) → (⟨S2000000x1, .i32⟩ : BufTy).Contents (Elt F) → (⟨S2000000x2, .i32⟩ : BufTy).Contents (Elt F)),
    ternary main_v0 main_v17 main_arg1 main_v18 ((fun x i u => Host.scatterAdd scatter_S20000x4096_S2000000x2_S2000000_n_01_01_1 x i u) : (⟨S20000x4096, .f32⟩ : BufTy).Contents (Elt F) → (⟨S2000000x2, .i32⟩ : BufTy).Contents (Elt F) → (⟨S2000000, .f32⟩ : BufTy).Contents (Elt F) → (⟨S20000x4096, .f32⟩ : BufTy).Contents (Elt F)),
    binary main_arg0 main_v18 main_v19 ((fun l r => Host.dotGeneral dot_S2048x20000_S20000x4096_S2048x4096_1_0_0_1_n_n none l r) : (⟨S2048x20000, .f32⟩ : BufTy).Contents (Elt F) → (⟨S20000x4096, .f32⟩ : BufTy).Contents (Elt F) → (⟨S2048x4096, .f32⟩ : BufTy).Contents (Elt F)),
    unary main_arg2 main_v20 (broadcastInDim S1x4096 ![1] bcast_S4096_S1x4096_1 : (⟨S4096, .f32⟩ : BufTy).Contents (Elt F) → (⟨S1x4096, .f32⟩ : BufTy).Contents (Elt F)),
    unary main_v20 main_v21 (broadcastInDim S2048x4096 ![0, 1] bcast_S1x4096_S2048x4096_0_1 : (⟨S1x4096, .f32⟩ : BufTy).Contents (Elt F) → (⟨S2048x4096, .f32⟩ : BufTy).Contents (Elt F)),
    binary main_v19 main_v21 main_v22 (addf : (⟨S2048x4096, .f32⟩ : BufTy).Contents (Elt F) → (⟨S2048x4096, .f32⟩ : BufTy).Contents (Elt F) → (⟨S2048x4096, .f32⟩ : BufTy).Contents (Elt F)),
    TRef.nullary main_call0.cst (constant S_ .f32 0x00000000#32),
    TRef.unary main_call0.cst main_call0.v0 (broadcastInDim S2048x4096 ![] bcast_S_S2048x4096),
    TRef.binary (TRef.of (T := ⟨S2048x4096, .f32⟩) main_v22) main_call0.v0 main_call0.v1 (cmpf .ogt),
    TRef.nullary main_call0.cst_0 (constant S_ .f32 0x00000000#32),
    TRef.unary main_call0.cst_0 main_call0.v2 (broadcastInDim S2048x4096 ![] bcast_S_S2048x4096),
    TRef.binary (TRef.of (T := ⟨S2048x4096, .f32⟩) main_v22) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S2048x4096 ![] bcast_S_S2048x4096),
    TRef.ternary main_call0.v3 main_call0.call0.v1 (TRef.of (T := ⟨S2048x4096, .f32⟩) main_v22) main_call0.call0.v2 select,
    TRef.unary main_call0.call0.v2 main_call0.v5 Host.expm1,
    TRef.nullary main_call0.cst_2 (constant S_ .f32 0x3F800000#32),
    TRef.unary main_call0.cst_2 main_call0.v6 (broadcastInDim S2048x4096 ![] bcast_S_S2048x4096),
    TRef.binary main_call0.v6 main_call0.v5 main_call0.v7 mulf,
    TRef.ternary main_call0.v1 (TRef.of (T := ⟨S2048x4096, .f32⟩) main_v22) main_call0.v7 main_call0.call1.v0 select ]

-- forty-three binds re-associated: the rewriting under the chain recurses once per statement
set_option maxRecDepth 8192 in
/-- @main is that straight line: the three functions' definitions unfolded at their calls and the
    records at their fields, both sides are one chain of operation steps once sequencing is
    re-associated. -/
theorem main_eq (c : Dev nD) : main (F := F) c = seq ops := by
  simp only [main, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..,
    binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

end Line

/-! ## The composed term, at the extended reals -/

/-- The index table with its negative entries wrapped: column 0 moved up by 20000 where negative,
    column 1 by 4096 where negative, the two columns side by side again. -/
def normIdx (ind : IVec S2000000x2 32) : IVec S2000000x2 32 :=
  cat2
    (broadcastInDim S2000000x1 ![0] bcast_S2000000_S2000000x1_0
        (select
          (cmpi .slt (shapeCast S2000000 (extractStridedSlice S2000000x1 ![0, 0] ind slices_S2000000x2_S2000000x1_0_0) shapeCasts_S2000000x1_S2000000)
            (broadcastInDim S2000000 ![] bcast_S_S2000000 (constantI S_ 32 0#32)))
          (addi (shapeCast S2000000 (extractStridedSlice S2000000x1 ![0, 0] ind slices_S2000000x2_S2000000x1_0_0) shapeCasts_S2000000x1_S2000000)
            (broadcastInDim S2000000 ![] bcast_S_S2000000 (constantI S_ 32 20000#32)))
          (shapeCast S2000000 (extractStridedSlice S2000000x1 ![0, 0] ind slices_S2000000x2_S2000000x1_0_0) shapeCasts_S2000000x1_S2000000)))
    (broadcastInDim S2000000x1 ![0] bcast_S2000000_S2000000x1_0
        (select
          (cmpi .slt (shapeCast S2000000 (extractStridedSlice S2000000x1 ![0, 1] ind slices_S2000000x2_S2000000x1_0_1) shapeCasts_S2000000x1_S2000000)
            (broadcastInDim S2000000 ![] bcast_S_S2000000 (constantI S_ 32 0#32)))
          (addi (shapeCast S2000000 (extractStridedSlice S2000000x1 ![0, 1] ind slices_S2000000x2_S2000000x1_0_1) shapeCasts_S2000000x1_S2000000)
            (broadcastInDim S2000000 ![] bcast_S_S2000000 (constantI S_ 32 4096#32)))
          (shapeCast S2000000 (extractStridedSlice S2000000x1 ![0, 1] ind slices_S2000000x2_S2000000x1_0_1) shapeCasts_S2000000x1_S2000000)))

/-- The update vector scatter-added into the zero matrix at the wrapped positions. -/
def scat (ind : IVec S2000000x2 32) (kv : FVec Ideal S2000000 .f32) : FVec Ideal S20000x4096 .f32 :=
  Host.scatterAdd (F := Ideal) scatter_S20000x4096_S2000000x2_S2000000_n_01_01_1
    (broadcastInDim S20000x4096 ![] bcast_S_S20000x4096 (constant (F := Ideal) S_ .f32 0x00000000#32))
    (normIdx ind) kv

/-- The input matrix times the scattered matrix, the bias row added to every row. -/
def preAct (x : FVec Ideal S2048x20000 .f32) (kv : FVec Ideal S2000000 .f32) (b : FVec Ideal S4096 .f32)
    (ind : IVec S2000000x2 32) : FVec Ideal S2048x4096 .f32 :=
  addf (Host.dotGeneral (F := Ideal) dot_S2048x20000_S20000x4096_S2048x4096_1_0_0_1_n_n none x (scat ind kv))
    (broadcastInDim S2048x4096 ![0, 1] bcast_S1x4096_S2048x4096_0_1 (broadcastInDim S1x4096 ![1] bcast_S4096_S1x4096_1 b))

/-- The exponential-linear unit as the reference spells it: where the argument exceeds zero the
    argument, elsewhere one times exp(.) - 1 of the argument with its positive entries replaced by zero. -/
def eluTerm (z : FVec Ideal S2048x4096 .f32) : FVec Ideal S2048x4096 .f32 :=
  select (cmpf .ogt z (broadcastInDim S2048x4096 ![] bcast_S_S2048x4096 (constant (F := Ideal) S_ .f32 0x00000000#32))) z
    (mulf (broadcastInDim S2048x4096 ![] bcast_S_S2048x4096 (constant (F := Ideal) S_ .f32 0x3F800000#32))
      (Host.expm1 (F := Ideal)
        (select (cmpf .ogt z (broadcastInDim S2048x4096 ![] bcast_S_S2048x4096 (constant (F := Ideal) S_ .f32 0x00000000#32)))
          (broadcastInDim S2048x4096 ![] bcast_S_S2048x4096 (id (constant (F := Ideal) S_ .f32 0x00000000#32))) z)))

/-- The whole composed result of the four arguments' contents. -/
def refTerm (x : FVec Ideal S2048x20000 .f32) (kv : FVec Ideal S2000000 .f32) (b : FVec Ideal S4096 .f32)
    (ind : IVec S2000000x2 32) : FVec Ideal S2048x4096 .f32 :=
  eluTerm (preAct x kv b ind)

-- the final comparison walks the composed term through the typed references' transports, one table lookup each
set_option maxRecDepth 100000 in
set_option maxHeartbeats 4000000 in
/-- On every device, from any memory with zero counters: every weakly fair execution of @main
    terminates with the result at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq (defs (F := Ideal)) (main (F := Ideal)) (fun _ => ops) main_eq (fun _ => ops_sub) m ρ)

end Cert.ReferenceIdeal.Hand

end
-- ==== Proof.PreRows.lean ====
/-
  The precondition is a conjunction of four one-bit scalars; the last is the reduction by `and`, over all 2000000 rows, of
  the signed comparison "column 0 of the index array ≥ 0" (column 0 is cut out of the array and reshaped to a vector,
  the 0 is a broadcast constant). The conjunction being 1, that reduction is 1, so the comparison holds at every row:
  every row index is nonnegative, read as a signed integer.
-/
import proofs.«181732_j9337258902417_2_alg».proof.Pre_finite_inputs
import proofs.«181732_j9337258902417_2_alg».proof.Proof.Gen.Pre_finite_inputs
import Idealize.ShloMosaic.Lib.ReduceAll
import Idealize.ShloMosaic.Lib.ValueIdx
import Idealize.ShloMosaic.Lib.ValueLayout
import Idealize.ShloMosaic.Lib.IdealHost

noncomputable section

namespace Cert.Bridge

open Idealize.ShloMosaic Idealize.ShloMosaic.ValueIdx

/-- The scalar shape has one index. -/
instance : Subsingleton Cert.Pre_finite_inputs.S_.Idx := ⟨fun a b => funext fun d => d.elim0⟩

/-- The precondition's last conjunct, decoded: every row index is nonnegative, read signed. -/
theorem rows_nonneg_toInt {F : FTy → Type} [FloatOps F] [Cert.Pre_finite_inputs.Facts]
    (x : FVec F Cert.Pre_finite_inputs.S2048x20000 .f32) (kv : FVec F Cert.Pre_finite_inputs.S2000000 .f32)
    (b : FVec F Cert.Pre_finite_inputs.S4096 .f32) (ind : IVec Cert.Pre_finite_inputs.S2000000x2 32)
    (h : Cert.Pre_finite_inputs.fn (F := F) x kv b ind = (fun _ => 1#1)) (n : Fin 2000000) :
    0 ≤ (ind (ix2 n 0)).toInt := by
  -- the claim at the one index of the scalar result
  have e := congrFun h ix0
  dsimp only [Cert.Pre_finite_inputs.fn, Cert.Pre_finite_inputs.fn_part1] at e
  -- its last conjunct is the reduction by `and` of the comparison array; that being 1, so is the comparison at `n`
  have e3 := Host.reduce_andi_all _ _ _ _ _ (IntOp.andi_eq_one.1 e).2 (ix1 n)
  have e4 := IntOp.cmpi_sge.1 e3
  -- the right operand is the constant 0 broadcast
  have hb : broadcastInDim Cert.Pre_finite_inputs.S2000000 ![] Cert.Pre_finite_inputs.Facts.bcast_S_S2000000
      (constantI Cert.Pre_finite_inputs.S_ 32 0#32) (ix1 n) = 0#32 := by
    rw [broadcastInDim_scalar_apply, constantI_apply]
  -- the left operand is column 0 of the index array, cut out and reshaped to a vector
  have hc : shapeCast Cert.Pre_finite_inputs.S2000000
      (extractStridedSlice Cert.Pre_finite_inputs.S2000000x1 ![0, 0] ind Cert.Pre_finite_inputs.Facts.slices_S2000000x2_S2000000x1_0_0)
      Cert.Pre_finite_inputs.Facts.shapeCasts_S2000000x1_S2000000 (ix1 n)
      = extractStridedSlice Cert.Pre_finite_inputs.S2000000x1 ![0, 0] ind Cert.Pre_finite_inputs.Facts.slices_S2000000x2_S2000000x1_0_0 (ix2 n 0) :=
    shapeCast_apply _ _ _ _ (by
      rw [Shape.rowMajor_val_two, Shape.rowMajor_val_one]
      show n.val * 1 + 0 = n.val
      omega)
  have hs : extractStridedSlice Cert.Pre_finite_inputs.S2000000x1 ![0, 0] ind Cert.Pre_finite_inputs.Facts.slices_S2000000x2_S2000000x1_0_0 (ix2 n 0)
      = ind (ix2 n 0) :=
    slice2_axis1_apply 0 ind _ n 0 0 rfl
  rw [hb, hc, hs, show (0#32 : BitVec 32).toInt = 0 from by decide] at e4
  exact e4

/-- The same as a statement about the signed comparison with zero. -/
theorem rows_nonneg {F : FTy → Type} [FloatOps F] [Cert.Pre_finite_inputs.Facts]
    (x : FVec F Cert.Pre_finite_inputs.S2048x20000 .f32) (kv : FVec F Cert.Pre_finite_inputs.S2000000 .f32)
    (b : FVec F Cert.Pre_finite_inputs.S4096 .f32) (ind : IVec Cert.Pre_finite_inputs.S2000000x2 32)
    (h : Cert.Pre_finite_inputs.fn (F := F) x kv b ind = (fun _ => 1#1)) (n : Fin 2000000) :
    ¬ (ind (ix2 n 0)).slt 0#32 = true := by
  have h0 := rows_nonneg_toInt x kv b ind h n
  rw [BitVec.slt_iff_toInt_lt, show (0#32 : BitVec 32).toInt = 0 from by decide]
  omega

end Cert.Bridge

end
-- ==== Proof.KPad.lean ====
/-
  The input matrix padded with 480 columns of the padding value on the right, read at one entry: the matrix's own entry
  when the column is below 20000, the padding value otherwise. The padding value is the integer 0 converted, exactly 0.
-/
import proofs.«181732_j9337258902417_2_alg».proof.KernelIdeal
import Idealize.ShloMosaic.PureOps.Ideal
import Idealize.ShloMosaic.Lib.ValueIdx
import Idealize.ShloMosaic.Lib.KernelVsHost

noncomputable section

namespace Cert.KernelIdeal.Hand

open Idealize.ShloMosaic Idealize.ShloMosaic.ValueIdx
open Cert.KernelIdeal Cert.KernelIdeal.Facts₀

variable [Cert.KernelIdeal.Facts₀]

/-- The padded matrix at row `r`, column `k`. -/
theorem pad_apply (x : FVec Ideal S2048x20000 .bf16) (v : FVec Ideal S_ .bf16) (r : Fin 2048) (k : Fin 20480) :
    pad S2048x20480 ![0, 0] ![0, 480] ![0, 0] x v pads_S2048x20000_S2048x20480_000_04800 h_S_ (ix2 r k)
      = if h : k.val < 20000 then x (ix2 r ⟨k.val, h⟩) else v ix0 := by
  by_cases h : k.val < 20000
  · rw [dif_pos h]
    exact pad_apply_of_inside (s := S2048x20000) (t := S2048x20480) _ _ _ x v _ _ (ix2 r k : S2048x20480.Idx)
      (ix2 r ⟨k.val, h⟩ : S2048x20000.Idx) (fun a => by
        match a with
        | ⟨0, _⟩ => show r.val = 0 + r.val * (0 + 1); omega
        | ⟨1, _⟩ => show k.val = 0 + k.val * (0 + 1); omega)
  · rw [dif_neg h]
    refine (pad_apply_of_not_inside (s := S2048x20000) (t := S2048x20480) _ _ _ x v _ _ (ix2 r k : S2048x20480.Idx)
      (1 : Fin 2) (fun hin => ?_)).trans (congrArg v (eq_ix0 _))
    have e : (k.val - 0) / (0 + 1) < 20000 := hin.2.2
    omega

/-- The padding value: the 32-bit integer 0, converted, is 0. -/
theorem sitofp_zero : (sitofp (F := Ideal) .bf16 (constantI S_ 32 0#32) : FVec Ideal S_ .bf16) ix0 = 0 := by
  show (((0#32 : BitVec 32).toInt : ℝ) : EReal) = 0
  rw [show (0#32 : BitVec 32).toInt = 0 from by decide]
  simp

end Cert.KernelIdeal.Hand

end
-- ==== Proof.ScatterAgree.lean ====
/-
  A scatter-add of scalars at (row, column) pairs, read at one element. With both operand axes inserted and no window
  axis, update `j` lands on element `(r, c)` exactly when the pair stored for `j`, read as signed integers, is `(r, c)`;
  a pair outside the matrix lands nowhere. Hence two such scatters of the same updates at the same pairs, into a matrix
  of 20480 rows and into one of 20000 rows, collect the same updates at every element whose row is below 20000.
-/
import proofs.«181732_j9337258902417_2_alg».proof.KernelIdeal
import proofs.«181732_j9337258902417_2_alg».proof.ReferenceIdeal
import Idealize.ShloMosaic.PureOps.Ideal
import Idealize.ShloMosaic.Lib.ValueIdx

noncomputable section
open scoped BigOperators

namespace Cert.Bridge

open Idealize.ShloMosaic Idealize.ShloMosaic.ValueIdx

/-- The dimension numbers of a scatter of `N` scalars into an `R × C` matrix at `N` (row, column) pairs: no window
    axis, both operand axes inserted, component `a` of a pair naming operand axis `a`, the pair lying along axis 1 of
    the index array. -/
abbrev pointDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

section Point
variable {R C N w : Nat} (wf : ScatterDims.WF ⟨2, ![R, C]⟩ ⟨2, ![N, 2]⟩ ⟨1, ![N]⟩ [] [0, 1] [0, 1] 1)
  (j : (⟨1, ![N]⟩ : Shape).Idx) (idx : IVec ⟨2, ![N, 2]⟩ w)

/-- Both operand axes are inserted: the window coordinate is `0` on each. -/
theorem pointDims_window (a : Fin 2) : (pointDims R C N wf).window j a = 0 := by
  unfold ScatterDims.window
  rw [dif_neg]
  show ¬ a ∈ (List.finRange 2).filter (· ∉ [0, 1])
  revert a; decide

/-- The start on the row axis is the pair's first component, read signed. -/
theorem pointDims_start0 : (pointDims R C N wf).start j idx 0 = (idx (ix2 (j 0) 0)).toInt := by
  unfold ScatterDims.start
  rw [dif_pos (show (0 : Fin 2) ∈ ([0, 1] : List (Fin 2)) by decide)]
  have hsi : (pointDims R C N wf).siIdx j ⟨List.idxOf (0 : Fin 2) ([0, 1] : List (Fin 2)),
      List.idxOf_lt_length_iff.2 (by decide)⟩ = ix2 (j 0) 0 := by
    funext b; refine Fin.ext ?_
    match b with
    | ⟨0, _⟩ => rfl
    | ⟨1, _⟩ => rfl
  rw [hsi]; rfl

/-- The start on the column axis is the pair's second component, read signed. -/
theorem pointDims_start1 : (pointDims R C N wf).start j idx 1 = (idx (ix2 (j 0) 1)).toInt := by
  unfold ScatterDims.start
  rw [dif_pos (show (1 : Fin 2) ∈ ([0, 1] : List (Fin 2)) by decide)]
  have hsi : (pointDims R C N wf).siIdx j ⟨List.idxOf (1 : Fin 2) ([0, 1] : List (Fin 2)),
      List.idxOf_lt_length_iff.2 (by decide)⟩ = ix2 (j 0) 1 := by
    funext b; refine Fin.ext ?_
    match b with
    | ⟨0, _⟩ => rfl
    | ⟨1, _⟩ => rfl
  rw [hsi]; rfl

/-- Update `j` lands on element `(r, c)` exactly when its pair, read signed, is `(r, c)`. -/
theorem pointDims_resultIdx_iff (r : Fin R) (c : Fin C) :
    (pointDims R C N wf).resultIdx? j idx = some (ix2 r c) ↔
      (idx (ix2 (j 0) 0)).toInt = (r.val : Int) ∧ (idx (ix2 (j 0) 1)).toInt = (c.val : Int) := by
  have hs0 := pointDims_start0 wf j idx
  have hs1 := pointDims_start1 wf j idx
  have hw0 := pointDims_window wf j 0
  have hw1 := pointDims_window wf j 1
  have hr := r.isLt
  have hc := c.isLt
  unfold ScatterDims.resultIdx?
  split
  · rename_i h
    have h0 : 0 ≤ (pointDims R C N wf).start j idx 0 + ((pointDims R C N wf).window j 0 : Int) ∧
        (pointDims R C N wf).start j idx 0 + ((pointDims R C N wf).window j 0 : Int) < (R : Int) := h 0
    have h1 : 0 ≤ (pointDims R C N wf).start j idx 1 + ((pointDims R C N wf).window j 1 : Int) ∧
        (pointDims R C N wf).start j idx 1 + ((pointDims R C N wf).window j 1 : Int) < (C : Int) := h 1
    rw [Option.some.injEq]
    constructor
    · intro e
      have e0 : ((pointDims R C N wf).start j idx 0 + ((pointDims R C N wf).window j 0 : Int)).toNat = r.val :=
        congrArg (fun f => (f 0).val) e
      have e1 : ((pointDims R C N wf).start j idx 1 + ((pointDims R C N wf).window j 1 : Int)).toNat = c.val :=
        congrArg (fun f => (f 1).val) e
      rw [hs0, hw0] at h0 e0
      rw [hs1, hw1] at h1 e1
      constructor <;> omega
    · rintro ⟨e0, e1⟩
      funext a
      refine Fin.ext ?_
      match a with
      | ⟨0, _⟩ =>
        show ((pointDims R C N wf).start j idx 0 + ((pointDims R C N wf).window j 0 : Int)).toNat = r.val
        rw [hs0, hw0, e0]; omega
      | ⟨1, _⟩ =>
        show ((pointDims R C N wf).start j idx 1 + ((pointDims R C N wf).window j 1 : Int)).toNat = c.val
        rw [hs1, hw1, e1]; omega
  · rename_i h
    constructor
    · intro e; cases e
    · rintro ⟨e0, e1⟩
      exfalso
      apply h
      intro a
      match a with
      | ⟨0, _⟩ =>
        show 0 ≤ (pointDims R C N wf).start j idx 0 + ((pointDims R C N wf).window j 0 : Int) ∧
          (pointDims R C N wf).start j idx 0 + ((pointDims R C N wf).window j 0 : Int) < (R : Int)
        rw [hs0, hw0, e0]; omega
      | ⟨1, _⟩ =>
        show 0 ≤ (pointDims R C N wf).start j idx 1 + ((pointDims R C N wf).window j 1 : Int) ∧
          (pointDims R C N wf).start j idx 1 + ((pointDims R C N wf).window j 1 : Int) < (C : Int)
        rw [hs1, hw1, e1]; omega

end Point

/-- The two programs scatter the same updates at the same (row, column) pairs into matrices of 20480 and of 20000 rows:
    at a row below 20000 the two results take the same updates, so they agree wherever the operands do. -/
theorem scatter_agree [Cert.KernelIdeal.Facts₀] [Cert.ReferenceIdeal.Facts₀]
    (idxK idxR : IVec Cert.KernelIdeal.S2000000x2 32) (upd : Cert.KernelIdeal.S2000000.Idx → EReal)
    (xK : Cert.KernelIdeal.S20480x4096.Idx → EReal) (xR : Cert.ReferenceIdeal.S20000x4096.Idx → EReal)
    (hidx : ∀ (n : Fin 2000000) (a : Fin 2), idxK (ix2 n a) = idxR (ix2 n a))
    (k : Fin 20000) (c : Fin 4096) (hx : xK (ix2 ⟨k.val, by omega⟩ c) = xR (ix2 k c)) :
    Ideal.hostScatterAdd Cert.KernelIdeal.scatter_S20480x4096_S2000000x2_S2000000_n_01_01_1 xK idxK upd (ix2 ⟨k.val, by omega⟩ c)
      = Ideal.hostScatterAdd Cert.ReferenceIdeal.scatter_S20000x4096_S2000000x2_S2000000_n_01_01_1 xR idxR upd (ix2 k c) := by
  have eK : Cert.KernelIdeal.scatter_S20480x4096_S2000000x2_S2000000_n_01_01_1
      = pointDims 20480 4096 2000000 Cert.KernelIdeal.Facts₀.scatter_S20480x4096_S2000000x2_S2000000_n_01_01_1_wf := rfl
  have eR : Cert.ReferenceIdeal.scatter_S20000x4096_S2000000x2_S2000000_n_01_01_1
      = pointDims 20000 4096 2000000 Cert.ReferenceIdeal.Facts₀.scatter_S20000x4096_S2000000x2_S2000000_n_01_01_1_wf := rfl
  unfold Ideal.hostScatterAdd
  rw [hx, eK, eR]
  refine congrArg (fun t => xR (ix2 k c) + t) ?_
  refine Finset.sum_congr (Finset.filter_congr fun j _ => ?_) (fun _ _ => rfl)
  rw [pointDims_resultIdx_iff, pointDims_resultIdx_iff, hidx (j 0) 0, hidx (j 0) 1]

end Cert.Bridge

end
-- ==== Proof.SumLaw.lean ====
/-
  A sum over twenty consecutive blocks of 1024 indices is the sum over the first 20480 indices; when the summand
  vanishes on [20000, 20480), it is the sum over the first 20000.
-/
import Mathlib.Algebra.BigOperators.Group.Finset.Basic
import Mathlib.Data.Fintype.BigOperators

open scoped BigOperators

namespace Cert.Bridge

/-- `n` consecutive blocks of `b` indices make up the first `b * n` indices. -/
theorem sum_blocks {M : Type*} [AddCommMonoid M] (f : ℕ → M) (b n : ℕ) :
    ∑ s ∈ Finset.range n, ∑ kk : Fin b, f (b * s + kk.val) = ∑ k ∈ Finset.range (b * n), f k := by
  induction n with
  | zero => simp
  | succ n ih =>
    rw [Finset.sum_range_succ, ih, Nat.mul_succ, Finset.sum_range_add f (b * n) b,
      Fin.sum_univ_eq_sum_range (fun x => f (b * n + x)) b]

/-- Twenty blocks of 1024, the summand zero on [20000, 20480): the sum over the first 20000 indices. -/
theorem sum_blocks_pad {M : Type*} [AddCommMonoid M] (f : ℕ → M) (hz : ∀ k, 20000 ≤ k → k < 20480 → f k = 0) :
    ∑ s ∈ Finset.range 20, ∑ kk : Fin 1024, f (1024 * s + kk.val) = ∑ k : Fin 20000, f k.val := by
  rw [sum_blocks f 1024 20, show 1024 * 20 = 20000 + 480 from rfl, Finset.sum_range_add f 20000 480,
    Fin.sum_univ_eq_sum_range f 20000]
  rw [Finset.sum_eq_zero (fun x hx => hz (20000 + x) (Nat.le_add_right _ _) (by
    have := Finset.mem_range.1 hx
    omega)), add_zero]

end Cert.Bridge
-- ==== Proof.RefRead.lean ====
/-
  The reference's composed result read at one element, and its wrapped index table read at one
  entry.

  At row r and column c the result is the exponential-linear unit of the sum, over the contracted
  coordinate k, of x[r,k] times the scattered matrix at [k,c], plus the bias at c: the matrix
  product is that sum, the two broadcasts of the bias row read the bias at the column, and the
  reference's two selections around exp(.) - 1 are the unit (above zero both take the element;
  elsewhere the inner one keeps it and one times exp(.) - 1 is exp(.) - 1).
  At row n the wrapped table's column 0 is the table's entry moved up by 20000 where it is
  negative as a signed word, its column 1 the entry moved up by 4096 where negative: a column is
  a slice of width one read as a vector, the comparison and the addition are elementwise, and the
  two columns stand side by side again.
-/
import proofs.«181732_j9337258902417_2_alg».proof.Proof.RefRun
import proofs.«181732_j9337258902417_2_alg».proof.Proof.EluLaw
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ## The dimension numbers' operand indices -/

/-- The product's dimension numbers: rows by the contracted axis, the contracted axis by columns. -/
abbrev dotD : DotDims S2048x20000 S20000x4096 S2048x4096 := dot_S2048x20000_S20000x4096_S2048x4096_1_0_0_1_n_n

theorem lhs_0 (i : S2048x4096.Idx) (q : dotD.contr.Idx) : (dotD.lhsIdx i q 0).val = (i 0).val := by
  unfold DotDims.lhsIdx
  rw [dif_neg (show ¬(0 : Fin S2048x20000.rank) ∈ dotD.lhsBatch by decide),
    dif_pos (show (0 : Fin S2048x20000.rank) ∈ dotD.lhsNonContracting by decide)]
  rfl
theorem lhs_1 (i : S2048x4096.Idx) (q : dotD.contr.Idx) : (dotD.lhsIdx i q 1).val = (q ⟨0, by decide⟩).val :=
  dotD.lhsIdx_val_of_single rfl i q
theorem rhs_0 (i : S2048x4096.Idx) (q : dotD.contr.Idx) : (dotD.rhsIdx i q 0).val = (q ⟨0, by decide⟩).val :=
  dotD.rhsIdx_val_of_single rfl i q
theorem rhs_1 (i : S2048x4096.Idx) (q : dotD.contr.Idx) : (dotD.rhsIdx i q 1).val = (i 1).val := by
  unfold DotDims.rhsIdx
  rw [dif_neg (show ¬(1 : Fin S20000x4096.rank) ∈ dotD.rhsBatch by decide),
    dif_pos (show (1 : Fin S20000x4096.rank) ∈ dotD.rhsNonContracting by decide)]
  rfl

/-- The matrix product read at an entry: the sum over the contracted coordinate of the products of
    the entries. -/
theorem dot_apply (x : FVec Ideal S2048x20000 .f32) (S : FVec Ideal S20000x4096 .f32) (r : Fin 2048) (c : Fin 4096) :
    Host.dotGeneral (F := Ideal) dotD none x S (ix2 r c) = ∑ k : Fin 20000, x (ix2 r k) * S (ix2 k c) := by
  show FloatOps.dotGeneral dotD none _ x S (ix2 r c) = _
  rw [Ideal.dotGeneral_apply, ← Equiv.sum_comp (contrEquiv1 dotD 20000 rfl rfl).symm]
  refine Finset.sum_congr rfl fun k _ => ?_
  have hk := contrEquiv1_symm_val dotD 20000 rfl rfl k
  have el : dotD.lhsIdx (ix2 r c) ((contrEquiv1 dotD 20000 rfl rfl).symm k) = ix2 r k := funext fun a => Fin.ext (by
    match a with
    | ⟨0, _⟩ => exact lhs_0 _ _
    | ⟨1, _⟩ => exact (lhs_1 _ _).trans hk)
  have er : dotD.rhsIdx (ix2 r c) ((contrEquiv1 dotD 20000 rfl rfl).symm k) = ix2 k c := funext fun a => Fin.ext (by
    match a with
    | ⟨0, _⟩ => exact (rhs_0 _ _).trans hk
    | ⟨1, _⟩ => exact rhs_1 _ _)
  rw [el, er]

/-- The bias row broadcast to every row, read at an entry: the bias at the entry's column. -/
theorem bias_apply (b : FVec Ideal S4096 .f32) (r : Fin 2048) (c : Fin 4096) :
    broadcastInDim S2048x4096 ![0, 1] bcast_S1x4096_S2048x4096_0_1 (broadcastInDim S1x4096 ![1] bcast_S4096_S1x4096_1 b) (ix2 r c)
      = b (ix1 c) := by
  refine (broadcastInDim_apply _ _ _ (ix2 r c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-- The value before the unit, read at an entry. -/
theorem preAct_apply (x : FVec Ideal S2048x20000 .f32) (kv : FVec Ideal S2000000 .f32) (b : FVec Ideal S4096 .f32)
    (ind : IVec S2000000x2 32) (r : Fin 2048) (c : Fin 4096) :
    preAct x kv b ind (ix2 r c) = (∑ k : Fin 20000, x (ix2 r k) * scat ind kv (ix2 k c)) + b (ix1 c) := by
  unfold preAct
  generalize scat ind kv = S
  rw [addf_apply, bias_apply]
  exact congrArg (· + b (ix1 c)) (dot_apply x S r c)

/-! ## The exponential-linear unit at an element -/

/-- The reference's spelling of the unit, read at an element, is the unit of the element: above
    zero both selections take the element; elsewhere the inner selection keeps the element, and
    one times exp(.) - 1 of it is exp(.) - 1. -/
theorem eluTerm_apply (z : FVec Ideal S2048x4096 .f32) (j : S2048x4096.Idx) : eluTerm z j = Cert.Bridge.elu (z j) := by
  show Scalar.select (Ideal.cmp .ogt (z j) (Ideal.ofBits .f32 0x00000000#32)) (z j)
      (Ideal.ofBits .f32 0x3F800000#32
        * (Ideal.exp (Scalar.select (Ideal.cmp .ogt (z j) (Ideal.ofBits .f32 0x00000000#32)) (Ideal.ofBits .f32 0x00000000#32) (z j)) - 1))
    = _
  rw [Cert.Bridge.ofBits_zero, Cert.Bridge.ofBits_one, one_mul]
  have hc : Ideal.cmp .ogt (z j) 0 = BitVec.ofBool (decide (0 < z j)) := rfl
  rw [hc]
  unfold Cert.Bridge.elu Scalar.select
  by_cases h : 0 < z j
  · simp [h]
  · simp [h]

/-- The reference's result read at an entry: the unit of the row-by-column sum plus the bias. -/
theorem refTerm_apply (x : FVec Ideal S2048x20000 .f32) (kv : FVec Ideal S2000000 .f32) (b : FVec Ideal S4096 .f32)
    (ind : IVec S2000000x2 32) (r : Fin 2048) (c : Fin 4096) :
    refTerm x kv b ind (ix2 r c)
      = Cert.Bridge.elu ((∑ k : Fin 20000, x (ix2 r k) * scat ind kv (ix2 k c)) + b (ix1 c)) := by
  unfold refTerm
  rw [eluTerm_apply, preAct_apply]

/-! ## The wrapped index table at an entry -/

/-- A column of the table as a vector, read at a row: the table's entry. -/
theorem col_apply (ind : IVec S2000000x2 32) (n : Fin 2000000) (cl : Fin 2)
    (h : S2000000x2.Slices ![0, cl.val] S2000000x1) :
    shapeCast S2000000 (extractStridedSlice S2000000x1 ![0, cl.val] ind h) shapeCasts_S2000000x1_S2000000 (ix1 n)
      = ind (ix2 n cl) := by
  refine (shapeCast_apply _ _ (ix1 n) (ix2 n (0 : Fin 1)) ?_).trans ?_
  · rw [Shape.rowMajor_val_two, Shape.rowMajor_val_one]
    show n.val * 1 + 0 = n.val
    omega
  · refine extractStridedSlice_apply _ _ _ (ix2 n (0 : Fin 1)) (ix2 n cl) fun a => ?_
    match a with
    | ⟨0, _⟩ => show n.val = 0 + n.val; omega
    | ⟨1, _⟩ => show cl.val = cl.val + 0; omega

/-- One wrapped column, read at a row: the entry moved up by the bound where it is negative. -/
theorem wrap_apply (ind : IVec S2000000x2 32) (n : Fin 2000000) (cl : Fin 2) (bound : BitVec 32)
    (h : S2000000x2.Slices ![0, cl.val] S2000000x1) :
    broadcastInDim S2000000x1 ![0] bcast_S2000000_S2000000x1_0
        (select
          (cmpi .slt (shapeCast S2000000 (extractStridedSlice S2000000x1 ![0, cl.val] ind h) shapeCasts_S2000000x1_S2000000)
            (broadcastInDim S2000000 ![] bcast_S_S2000000 (constantI S_ 32 0#32)))
          (addi (shapeCast S2000000 (extractStridedSlice S2000000x1 ![0, cl.val] ind h) shapeCasts_S2000000x1_S2000000)
            (broadcastInDim S2000000 ![] bcast_S_S2000000 (constantI S_ 32 bound)))
          (shapeCast S2000000 (extractStridedSlice S2000000x1 ![0, cl.val] ind h) shapeCasts_S2000000x1_S2000000))
        (ix2 n (0 : Fin 1))
      = (if (ind (ix2 n cl)).slt 0#32 then ind (ix2 n cl) + bound else ind (ix2 n cl)) := by
  refine (broadcastInDim_apply _ _ _ (ix2 n (0 : Fin 1)) (ix1 n) fun a => ?_).trans ?_
  · match a with
    | ⟨0, _⟩ => rfl
  · show Scalar.select (IntOp.cmpi .slt (shapeCast S2000000 (extractStridedSlice S2000000x1 ![0, cl.val] ind h) shapeCasts_S2000000x1_S2000000 (ix1 n)) 0#32)
        (IntOp.addi (shapeCast S2000000 (extractStridedSlice S2000000x1 ![0, cl.val] ind h) shapeCasts_S2000000x1_S2000000 (ix1 n)) bound)
        (shapeCast S2000000 (extractStridedSlice S2000000x1 ![0, cl.val] ind h) shapeCasts_S2000000x1_S2000000 (ix1 n)) = _
    rw [col_apply]
    generalize ind (ix2 n cl) = v
    unfold Scalar.select IntOp.cmpi IntOp.addi
    cases hv : v.slt 0#32 <;> simp [hv]

/-- Column 0 of the wrapped table: a negative entry moved up by 20000. -/
theorem normIdx_apply0 (ind : IVec S2000000x2 32) (n : Fin 2000000) :
    normIdx ind (ix2 n (0 : Fin 2))
      = (if (ind (ix2 n (0 : Fin 2))).slt 0#32 then ind (ix2 n (0 : Fin 2)) + 20000#32 else ind (ix2 n (0 : Fin 2))) := by
  unfold normIdx cat2
  refine (concatenate_pair_apply_left (s₁ := S2000000x1) (s₂ := S2000000x1) (1 : Fin S2000000x2.rank) _ _ _ (ix2 n (0 : Fin 2)) rfl (ix2 n (0 : Fin 1)) fun a => ?_).trans ?_
  · match a with
    | ⟨0, _⟩ => rfl
    | ⟨1, _⟩ => rfl
  · exact wrap_apply ind n 0 20000#32 slices_S2000000x2_S2000000x1_0_0

/-- Column 1 of the wrapped table: a negative entry moved up by 4096. -/
theorem normIdx_apply1 (ind : IVec S2000000x2 32) (n : Fin 2000000) :
    normIdx ind (ix2 n (1 : Fin 2))
      = (if (ind (ix2 n (1 : Fin 2))).slt 0#32 then ind (ix2 n (1 : Fin 2)) + 4096#32 else ind (ix2 n (1 : Fin 2))) := by
  unfold normIdx cat2
  refine (concatenate_pair_apply_right (s₁ := S2000000x1) (s₂ := S2000000x1) (1 : Fin S2000000x2.rank) _ _ _ (ix2 n (1 : Fin 2)) rfl rfl (ix2 n (0 : Fin 1)) (fun a ha => ?_) ?_).trans ?_
  · match a with
    | ⟨0, _⟩ => rfl
    | ⟨1, _⟩ => exact absurd rfl ha
  · rfl
  · exact wrap_apply ind n 1 4096#32 slices_S2000000x2_S2000000x1_0_1

end Cert.ReferenceIdeal.Hand

end
-- ==== Proof.Bridge.lean ====
/-
  The two programs compute the same number at every entry of the result.

  The kernel program's entry (r, c) is the exponential-linear unit of twenty block sums, each over
  1024 positions of a shared axis of length 20480, plus the bias at c; its left matrix is the input
  padded with 480 columns of zero, its right matrix the updates scatter-added into a zero matrix
  of 20480 rows. The reference's entry is the unit of one sum over the 20000 positions plus the
  same bias, with the updates scatter-added into a zero matrix of 20000 rows.
  The twenty block sums are one sum over the first 20480 positions; on the last 480 the padded
  matrix is zero, so the products vanish and the sum stops at 20000. Below 20000 the padded matrix
  is the input, and the two scattered matrices agree: when no row index is negative neither program
  moves it, both move a negative column index up by 4096, so both scatter the same updates at the
  same (row, column) pairs, and a pair lands on a row below 20000 of one matrix exactly when it
  lands there on the other.
-/
import proofs.«181732_j9337258902417_2_alg».proof.Proof.KRes
import proofs.«181732_j9337258902417_2_alg».proof.Proof.KNorm
import proofs.«181732_j9337258902417_2_alg».proof.Proof.KPad
import proofs.«181732_j9337258902417_2_alg».proof.Proof.ScatterAgree
import proofs.«181732_j9337258902417_2_alg».proof.Proof.SumLaw
import proofs.«181732_j9337258902417_2_alg».proof.Proof.RefRead

noncomputable section

namespace Cert.Bridge

open Idealize.ShloMosaic Idealize.ShloMosaic.ValueIdx
open scoped BigOperators

-- the scatter's exact sum runs over two million updates: it is cited through its lemmas, never opened
attribute [local irreducible] Idealize.ShloMosaic.Ideal.hostScatterAdd

/-- Twenty block sums of products against one sum over the first 20000 positions: equal when the
    left factor vanishes from 20000 on and the factors below 20000 are the given ones. -/
theorem blocks_eq (A : Cert.KernelIdeal.S2048x20480.Idx → EReal) (B : Cert.KernelIdeal.S20480x4096.Idx → EReal)
    (xr Sc : Fin 20000 → EReal) (r : Fin 2048) (c : Fin 4096)
    (hA_in : ∀ k : Fin 20000, A (ix2 r (⟨k.val, by omega⟩ : Fin 20480)) = xr k)
    (hA_out : ∀ k : Fin 20480, 20000 ≤ k.val → A (ix2 r k) = 0)
    (hB : ∀ k : Fin 20000, B (ix2 (⟨k.val, by omega⟩ : Fin 20480) c) = Sc k) :
    ∑ s ∈ Finset.range 20, Cert.KernelIdeal.Hand.blockProd A B s r c = ∑ k : Fin 20000, xr k * Sc k := by
  let f : ℕ → EReal := fun k => if h : k < 20480 then A (ix2 r (⟨k, h⟩ : Fin 20480)) * B (ix2 (⟨k, h⟩ : Fin 20480) c) else 0
  have h1 : ∑ s ∈ Finset.range 20, Cert.KernelIdeal.Hand.blockProd A B s r c
      = ∑ s ∈ Finset.range 20, ∑ kk : Fin 1024, f (1024 * s + kk.val) :=
    Finset.sum_congr rfl fun s hs => by
      have hs' : s < 20 := Finset.mem_range.1 hs
      unfold Cert.KernelIdeal.Hand.blockProd
      rw [dif_pos hs']
      refine Finset.sum_congr rfl fun kk _ => ?_
      have hk : 1024 * s + kk.val < 20480 := by have := kk.isLt; omega
      show _ = (if h : 1024 * s + kk.val < 20480 then
        A (ix2 r (⟨1024 * s + kk.val, h⟩ : Fin 20480)) * B (ix2 (⟨1024 * s + kk.val, h⟩ : Fin 20480) c) else 0)
      rw [dif_pos hk]
  have hz : ∀ k, 20000 ≤ k → k < 20480 → f k = 0 := fun k hk1 hk2 => by
    show (if h : k < 20480 then A (ix2 r (⟨k, h⟩ : Fin 20480)) * B (ix2 (⟨k, h⟩ : Fin 20480) c) else 0) = 0
    rw [dif_pos hk2, hA_out ⟨k, hk2⟩ hk1, zero_mul]
  rw [h1, sum_blocks_pad f hz]
  refine Finset.sum_congr rfl fun k _ => ?_
  have hk : k.val < 20480 := by have := k.isLt; omega
  show (if h : k.val < 20480 then A (ix2 r (⟨k.val, h⟩ : Fin 20480)) * B (ix2 (⟨k.val, h⟩ : Fin 20480) c) else 0) = _
  rw [dif_pos hk, hA_in k, hB k]

/-- With no negative row index the two programs wrap the index table alike: the row index is left
    alone by both, the column index moved up by 4096 by both. -/
theorem normIdx_agree [Cert.KernelIdeal.Facts₀] (ind : IVec Cert.KernelIdeal.S2000000x2 32)
    (hrows : ∀ n : Fin 2000000, ¬ (ind (ix2 n 0)).slt 0#32 = true) (n : Fin 2000000) (a : Fin 2) :
    Cert.KernelIdeal.Hand.normIdx ind (ix2 n a) = Cert.ReferenceIdeal.Hand.normIdx ind (ix2 n a) := by
  match a with
  | ⟨0, _⟩ =>
    exact ((Cert.KernelIdeal.Hand.normIdx_apply0 ind n).trans (if_neg (hrows n))).trans
      ((Cert.ReferenceIdeal.Hand.normIdx_apply0 ind n).trans (if_neg (hrows n))).symm
  | ⟨1, _⟩ =>
    exact (Cert.KernelIdeal.Hand.normIdx_apply1 ind n).trans (Cert.ReferenceIdeal.Hand.normIdx_apply1 ind n).symm

/-- The two zero matrices read the same number at any two entries. -/
theorem zeros_agree [Cert.KernelIdeal.Facts₀] [Cert.ReferenceIdeal.Facts₀]
    (jK : Cert.KernelIdeal.S20480x4096.Idx) (jR : Cert.ReferenceIdeal.S20000x4096.Idx) :
    broadcastInDim Cert.KernelIdeal.S20480x4096 ![] Cert.KernelIdeal.Facts₀.bcast_S_S20480x4096
        (constant (F := Ideal) Cert.KernelIdeal.S_ .f32 0x00000000#32) jK
      = broadcastInDim Cert.ReferenceIdeal.S20000x4096 ![] Cert.ReferenceIdeal.Facts₀.bcast_S_S20000x4096
        (constant (F := Ideal) Cert.ReferenceIdeal.S_ .f32 0x00000000#32) jR :=
  (broadcastInDim_scalar_apply _ _ jK).trans (broadcastInDim_scalar_apply _ _ jR).symm

/-- The host's scatter-add at the extended reals is the exact sum of the updates landing on each
    entry (the whole arrays, no entry named). -/
theorem scatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The reference's scattered matrix, spelt out (the whole array, no entry named). -/
theorem scat_def [Cert.ReferenceIdeal.Facts₀] (ind : IVec Cert.ReferenceIdeal.S2000000x2 32) (kv : FVec Ideal Cert.ReferenceIdeal.S2000000 .f32) :
    Cert.ReferenceIdeal.Hand.scat ind kv
      = Host.scatterAdd (F := Ideal) Cert.ReferenceIdeal.scatter_S20000x4096_S2000000x2_S2000000_n_01_01_1
          (broadcastInDim Cert.ReferenceIdeal.S20000x4096 ![] Cert.ReferenceIdeal.Facts₀.bcast_S_S20000x4096
            (constant (F := Ideal) Cert.ReferenceIdeal.S_ .f32 0x00000000#32))
          (Cert.ReferenceIdeal.Hand.normIdx ind) kv := rfl

/-- The two scattered matrices agree at every row below 20000, when no row index is negative: the
    host's scatter-add at the extended reals is the exact sum of the updates landing on the entry,
    and both programs land the same updates there. -/
theorem scat_agree [Cert.KernelIdeal.Facts₀] [Cert.ReferenceIdeal.Facts₀]
    (kv : FVec Ideal Cert.KernelIdeal.S2000000 .f32) (ind : IVec Cert.KernelIdeal.S2000000x2 32)
    (hrows : ∀ n : Fin 2000000, ¬ (ind (ix2 n 0)).slt 0#32 = true) (k : Fin 20000) (c : Fin 4096) :
    Host.scatterAdd (F := Ideal) Cert.KernelIdeal.scatter_S20480x4096_S2000000x2_S2000000_n_01_01_1
        (broadcastInDim Cert.KernelIdeal.S20480x4096 ![] Cert.KernelIdeal.Facts₀.bcast_S_S20480x4096
          (constant (F := Ideal) Cert.KernelIdeal.S_ .f32 0x00000000#32))
        (Cert.KernelIdeal.Hand.normIdx ind) kv (ix2 (⟨k.val, by omega⟩ : Fin 20480) c)
      = Cert.ReferenceIdeal.Hand.scat ind kv (ix2 k c) :=
  (congrFun (scatterAdd_eq Cert.KernelIdeal.scatter_S20480x4096_S2000000x2_S2000000_n_01_01_1
      (broadcastInDim Cert.KernelIdeal.S20480x4096 ![] Cert.KernelIdeal.Facts₀.bcast_S_S20480x4096
        (constant (F := Ideal) Cert.KernelIdeal.S_ .f32 0x00000000#32))
      (Cert.KernelIdeal.Hand.normIdx ind) kv) (ix2 (⟨k.val, by omega⟩ : Fin 20480) c)).trans
  ((scatter_agree (Cert.KernelIdeal.Hand.normIdx ind) (Cert.ReferenceIdeal.Hand.normIdx ind) kv
      (broadcastInDim Cert.KernelIdeal.S20480x4096 ![] Cert.KernelIdeal.Facts₀.bcast_S_S20480x4096
        (constant (F := Ideal) Cert.KernelIdeal.S_ .f32 0x00000000#32))
      (broadcastInDim Cert.ReferenceIdeal.S20000x4096 ![] Cert.ReferenceIdeal.Facts₀.bcast_S_S20000x4096
        (constant (F := Ideal) Cert.ReferenceIdeal.S_ .f32 0x00000000#32))
      (normIdx_agree ind hrows) k c (zeros_agree (ix2 (⟨k.val, by omega⟩ : Fin 20480) c) (ix2 k c))).trans
  ((congrFun (scatterAdd_eq Cert.ReferenceIdeal.scatter_S20000x4096_S2000000x2_S2000000_n_01_01_1
      (broadcastInDim Cert.ReferenceIdeal.S20000x4096 ![] Cert.ReferenceIdeal.Facts₀.bcast_S_S20000x4096
        (constant (F := Ideal) Cert.ReferenceIdeal.S_ .f32 0x00000000#32))
      (Cert.ReferenceIdeal.Hand.normIdx ind) kv) (ix2 k c)).symm.trans
   (congrFun (scat_def ind kv) (ix2 k c)).symm))

open Cert.KernelIdeal Cert.KernelIdeal.Facts₀ in
/-- The kernel program's result and the reference's composed result agree at every entry, when no
    row index of the table is negative. -/
theorem value_eq [Cert.KernelIdeal.Facts₀] [Cert.ReferenceIdeal.Facts₀]
    (x : FVec Ideal Cert.KernelIdeal.S2048x20000 .f32) (kv : FVec Ideal Cert.KernelIdeal.S2000000 .f32) (b : FVec Ideal Cert.KernelIdeal.S4096 .f32) (ind : IVec Cert.KernelIdeal.S2000000x2 32)
    (hrows : ∀ n : Fin 2000000, ¬ (ind (ix2 n 0)).slt 0#32 = true) (r : Fin 2048) (c : Fin 4096) :
    Cert.KernelIdeal.Hand.resAt
        (pad Cert.KernelIdeal.S2048x20480 ![0, 0] ![0, 480] ![0, 0] (truncf (F := Ideal) .bf16 x bitsLt_bf16_f32)
          (sitofp (F := Ideal) .bf16 (constantI Cert.KernelIdeal.S_ 32 0#32)) pads_S2048x20000_S2048x20480_000_04800 h_S_)
        (Host.scatterAdd (F := Ideal) Cert.KernelIdeal.scatter_S20480x4096_S2000000x2_S2000000_n_01_01_1
          (broadcastInDim Cert.KernelIdeal.S20480x4096 ![] bcast_S_S20480x4096 (constant (F := Ideal) Cert.KernelIdeal.S_ .f32 0x00000000#32))
          (Cert.KernelIdeal.Hand.normIdx ind) kv)
        (shapeCast Cert.KernelIdeal.S1x4096 b shapeCasts_S4096_S1x4096)
        r c
      = Cert.ReferenceIdeal.Hand.refTerm x kv b ind (ix2 r c) := by
  rw [Cert.ReferenceIdeal.Hand.refTerm_apply]
  unfold Cert.KernelIdeal.Hand.resAt
  refine congrArg Cert.Bridge.elu ?_
  rw [zero_add, shapeCast_a_1a_apply]
  refine congrArg (· + b (ix1 c)) ?_
  refine blocks_eq _ _ (fun k => x (ix2 r k)) (fun k => Cert.ReferenceIdeal.Hand.scat ind kv (ix2 k c)) r c
    (fun k => ?_) (fun k hk => ?_) (fun k => scat_agree kv ind hrows k c)
  · -- below 20000 the padded matrix is the input (the change of format is the identity)
    rw [Cert.KernelIdeal.Hand.pad_apply, dif_pos k.isLt]
    rfl
  · -- from 20000 on it is the padding value, zero
    rw [Cert.KernelIdeal.Hand.pad_apply, dif_neg (by omega)]
    exact Cert.KernelIdeal.Hand.sitofp_zero

end Cert.Bridge

end
-- ==== Proof.lean ====
/-
  The five claims. The two kernel programs' frames are their generated frame runs; the reference's
  frame is its run with the result dropped; the idealization rewrote nothing. For the value claim both
  programs end at one function of the arguments: the kernel's result array is, entry by entry, the
  exponential-linear unit of a sum of twenty block products plus the bias, the reference's the same
  unit of one product over the 20000 shared positions plus the bias. The two sums agree because the
  padded columns of the input are zero, and because a row index that is not negative is wrapped by
  neither program, so that both scatter every update to the same entry of rows below 20000.
-/
import proofs.«181732_j9337258902417_2_alg».proof.Defs
import proofs.«181732_j9337258902417_2_alg».proof.Proof.Gen.Kernel
import proofs.«181732_j9337258902417_2_alg».proof.Proof.Gen.Kernel.Skeleton
import proofs.«181732_j9337258902417_2_alg».proof.Proof.Gen.Kernel.Launch
import proofs.«181732_j9337258902417_2_alg».proof.Proof.Gen.Kernel.Points
import proofs.«181732_j9337258902417_2_alg».proof.Proof.Gen.Kernel.Frame
import proofs.«181732_j9337258902417_2_alg».proof.Proof.Gen.KernelIdeal
import proofs.«181732_j9337258902417_2_alg».proof.Proof.Gen.KernelIdeal.Skeleton
import proofs.«181732_j9337258902417_2_alg».proof.Proof.Gen.KernelIdeal.Launch
import proofs.«181732_j9337258902417_2_alg».proof.Proof.Gen.KernelIdeal.Points
import proofs.«181732_j9337258902417_2_alg».proof.Proof.Gen.KernelIdeal.Frame
import proofs.«181732_j9337258902417_2_alg».proof.Proof.Gen.KernelIdeal.Value
import proofs.«181732_j9337258902417_2_alg».proof.Proof.Gen.ReferenceIdeal
import proofs.«181732_j9337258902417_2_alg».proof.Proof.Gen.Pre_finite_inputs
import proofs.«181732_j9337258902417_2_alg».proof.Proof.KFinal
import proofs.«181732_j9337258902417_2_alg».proof.Proof.KHost
import proofs.«181732_j9337258902417_2_alg».proof.Proof.RefRun
import proofs.«181732_j9337258902417_2_alg».proof.Proof.PreRows
import proofs.«181732_j9337258902417_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run m ρ)

/-- The kernel program's result array, as a function of its arguments, is the reference's term: the three
    operand arrays are read off the operations before the region, and the two values agree where no row
    index is negative. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.res (Cert.KernelIdeal.Gen.V m c Cert.KernelIdeal.main_v20) (Cert.KernelIdeal.Gen.V m c Cert.KernelIdeal.main_v18) (Cert.KernelIdeal.Gen.V m c Cert.KernelIdeal.main_v21)
      = Cert.ReferenceIdeal.Hand.refTerm (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) := by
  funext i
  obtain ⟨r, cc, rfl⟩ : ∃ (r : Fin 2048) (cc : Fin 4096), i = ix2 r cc := ⟨i 0, i 1, eq_ix2 i⟩
  rw [Cert.KernelIdeal.Hand.V_left m c, Cert.KernelIdeal.Hand.V_right m c, Cert.KernelIdeal.Hand.V_bias m c]
  exact Cert.Bridge.value_eq _ _ _ _ (fun n => Cert.Bridge.rows_nonneg _ _ _ _ (hpre c) n) r cc

theorem algebraic : Cert.algebraic_KernelIdeal_ReferenceIdeal := by
  intro m ρ m' ρ' hpre hagree
  refine ⟨fun c => Cert.KernelIdeal.Hand.res (Cert.KernelIdeal.Gen.V m c Cert.KernelIdeal.main_v20) (Cert.KernelIdeal.Gen.V m c Cert.KernelIdeal.main_v18) (Cert.KernelIdeal.Gen.V m c Cert.KernelIdeal.main_v21),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2]
  exact (result_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
